-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S32x512 : Shape := ⟨2, ![32, 512]⟩
abbrev S32 : Shape := ⟨1, ![32]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S16x512x64x64 .f32) (main_arg1 : FVec F S32x512 .f32) (main_arg2 : FVec F S32 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S16x512x64x64 : Shape := ⟨4, ![16, 512, 64, 64]⟩
abbrev S32x512 : Shape := ⟨2, ![32, 512]⟩
abbrev S32 : Shape := ⟨1, ![32]⟩
abbrev S16x512x4096 : Shape := ⟨3, ![16, 512, 4096]⟩
abbrev S32x1 : Shape := ⟨2, ![32, 1]⟩
abbrev S_ : Shape := ⟨0, ![]⟩
abbrev S16x32x512 : Shape := ⟨3, ![16, 32, 512]⟩
abbrev S1x512x2048 : Shape := ⟨3, ![1, 512, 2048]⟩
abbrev S1x32x512 : Shape := ⟨3, ![1, 32, 512]⟩
abbrev S512x2048 : Shape := ⟨2, ![512, 2048]⟩
abbrev S2048 : Shape := ⟨1, ![2048]⟩
abbrev S1x2048 : Shape := ⟨2, ![1, 2048]⟩
abbrev S32x2048 : Shape := ⟨2, ![32, 2048]⟩

abbrev nBuf : Space → Nat
  | .hbm => 11
  | .vmem => 9
  | .smem => 0
  | _ => 0

abbrev bufTy : (tb : Table) → Fin (tcTables nBuf tb) → BufTy
  | .hbm, ⟨0, _⟩ => ⟨S16x512x64x64, .f32⟩
  | .hbm, ⟨1, _⟩ => ⟨S32x512, .f32⟩
  | .hbm, ⟨2, _⟩ => ⟨S32, .f32⟩
  | .hbm, ⟨3, _⟩ => ⟨S16x512x4096, .f32⟩
  | .hbm, ⟨4, _⟩ => ⟨S32x1, .f32⟩
  | .hbm, ⟨5, _⟩ => ⟨S32x512, .bf16⟩
  | .hbm, ⟨6, _⟩ => ⟨S32x512, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S16x32x512, .f32⟩
  | .local _ .vmem, ⟨0, _⟩ => ⟨S1x512x2048, .f32⟩
  | .local _ .vmem, ⟨1, _⟩ => ⟨S1x512x2048, .f32⟩
  | .local _ .vmem, ⟨2, _⟩ => ⟨S32x512, .f32⟩
  | .local _ .vmem, ⟨3, _⟩ => ⟨S32x512, .bf16⟩
  | .local _ .vmem, ⟨4, _⟩ => ⟨S32x1, .f32⟩
  | .local _ .vmem, ⟨5, _⟩ => ⟨S32x1, .f32⟩
  | .local _ .vmem, ⟨6, _⟩ => ⟨S1x32x512, .f32⟩
  | .local _ .vmem, ⟨7, _⟩ => ⟨S1x32x512, .f32⟩
  | .local _ .vmem, ⟨8, _⟩ => ⟨S32x512, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v46 : BitVec 1 := Scalar.cmpi .eq arg1 c1_i32
  let v47 : BitVec 32 := Scalar.extui v46
  let c0_i32_21 : BitVec 32 := 0#32
  let v48 : BitVec 1 := Scalar.cmpi .ne v47 c0_i32_21
  v48

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S16x512x64x64_S16x512x4096 : S16x512x64x64.ShapeCasts S16x512x4096
  shapeCasts_S32_S32x1 : S32.ShapeCasts S32x1
  bitsLt_bf16_f32 : FTy.bits .bf16 < FTy.bits .f32
  reducesTo_S32x512_S32_d1 : S32x512.ReducesTo [1] S32
  h_S_ : 0 < S_.numel
  bcast_S32_S32x1_0 : S32.BroadcastsInDim S32x1 (![0] : Fin 1 → Fin S32x1.rank)
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S32x1_S32x1_0_0 : ∀ a, (![0, 0] : Fin 2 → Nat) a + S32x1.size a ≤ S32x1.size a
  h_S32x1 : 0 < S32x1.numel
  shapeCasts_S32x1_S32x1 : S32x1.ShapeCasts S32x1
  reduces_S512x2048_S2048 : S512x2048.Reduces [0] S2048
  shapeCasts_S2048_S1x2048 : S2048.ShapeCasts S1x2048
  broadcasts_S1x2048_S32x2048 : S1x2048.Broadcasts S32x2048
  broadcasts_S32x1_S32x2048 : S32x1.Broadcasts S32x2048
  reduces_S32x2048_S2048 : S32x2048.Reduces [0] S2048
  reduces_S32x2048_S32 : S32x2048.Reduces [1] S32
  broadcasts_S32x1_S32x512 : S32x1.Broadcasts S32x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  dot_S32x512_S512x2048_S32x2048_1_0_0_1_n_n_wf : DotDims.WF S32x512 S512x2048 S32x2048 [1] [0] [0] [1] [] []
  dot_S32x2048_S512x2048_S32x512_1_1_0_0_n_n_wf : DotDims.WF S32x2048 S512x2048 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x512x4096.size a
  hwx0_0 : ∀ i : grid0.Coords, EltTy.bits .f32 = 32 ∨ (Rect.block (s := S16x512x4096) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .bf16 = 32 ∨ (Rect.block (s := S32x512) S32x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x512.size a ≤ S16x32x512.size a
  hwx0_5 : ∀ i : grid0.Coords, EltTy.bits .f32 = 32 ∨ (Rect.block (s := S16x32x512) S1x32x512.size (cc0_transform_5 i) (hinb0_5 i)).WholeWords (EltTy.packing .f32)

variable [Facts₀]

def dot_S32x512_S512x2048_S32x2048_1_0_0_1_n_n : DotDims S32x512 S512x2048 S32x2048 where
  lhsContracting := [1]
  rhsContracting := [0]
  lhsNonContracting := [0]
  rhsNonContracting := [1]
  lhsBatch := []
  rhsBatch := []
  wf := dot_S32x512_S512x2048_S32x2048_1_0_0_1_n_n_wf
def dot_S32x2048_S512x2048_S32x512_1_1_0_0_n_n : DotDims S32x2048 S512x2048 S32x512 where
  lhsContracting := [1]
  rhsContracting := [1]
  lhsNonContracting := [0]
  rhsNonContracting := [0]
  lhsBatch := []
  rhsBatch := []
  wf := dot_S32x2048_S512x2048_S32x512_1_1_0_0_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x32x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16x512x64x64 : Shape := ⟨4, ![16, 512, 64, 64]⟩
abbrev S32x512 : Shape := ⟨2, ![32, 512]⟩
abbrev S32 : Shape := ⟨1, ![32]⟩
abbrev S16x512x4096 : Shape := ⟨3, ![16, 512, 4096]⟩
abbrev S16x4096x512 : Shape := ⟨3, ![16, 4096, 512]⟩
abbrev S_ : Shape := ⟨0, ![]⟩
abbrev S16x4096 : Shape := ⟨2, ![16, 4096]⟩
abbrev S16x4096x32 : Shape := ⟨3, ![16, 4096, 32]⟩
abbrev S16x4096x1 : Shape := ⟨3, ![16, 4096, 1]⟩
abbrev S1x1x32 : Shape := ⟨3, ![1, 1, 32]⟩
abbrev S16x32x512 : Shape := ⟨3, ![16, 32, 512]⟩
abbrev S16x32 : Shape := ⟨2, ![16, 32]⟩
abbrev S16x32x1 : Shape := ⟨3, ![16, 32, 1]⟩
abbrev S1x32x512 : Shape := ⟨3, ![1, 32, 512]⟩

abbrev nBuf : Space → Nat
  | .hbm => 47
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S32x512, .f32⟩
  | .hbm, ⟨2, _⟩ => ⟨S32, .f32⟩
  | .hbm, ⟨3, _⟩ => ⟨S16x512x4096, .f32⟩
  | .hbm, ⟨4, _⟩ => ⟨S16x4096x512, .f32⟩
  | .hbm, ⟨5, _⟩ => ⟨S16x4096x512, .f32⟩
  | .hbm, ⟨6, _⟩ => ⟨S_, .f32⟩
  | .hbm, ⟨7, _⟩ => ⟨S16x4096, .f32⟩
  | .hbm, ⟨8, _⟩ => ⟨S32x512, .f32⟩
  | .hbm, ⟨9, _⟩ => ⟨S_, .f32⟩
  | .hbm, ⟨10, _⟩ => ⟨S32, .f32⟩
  | .hbm, ⟨11, _⟩ => ⟨S16x4096x32, .f32⟩
  | .hbm, ⟨12, _⟩ => ⟨S16x4096x1, .f32⟩
  | .hbm, ⟨13, _⟩ => ⟨S_, .f32⟩
  | .hbm, ⟨14, _⟩ => ⟨S16x4096x32, .f32⟩
  | .hbm, ⟨15, _⟩ => ⟨S16x4096x32, .f32⟩
  | .hbm, ⟨16, _⟩ => ⟨S16x4096x32, .f32⟩
  | .hbm, ⟨17, _⟩ => ⟨S16x4096x32, .f32⟩
  | .hbm, ⟨18, _⟩ => ⟨S1x1x32, .f32⟩
  | .hbm, ⟨19, _⟩ => ⟨S16x4096x32, .f32⟩
  | .hbm, ⟨20, _⟩ => ⟨S16x4096x32, .f32⟩
  | .hbm, ⟨21, _⟩ => ⟨S1x1x32, .f32⟩
  | .hbm, ⟨22, _⟩ => ⟨S16x4096x32, .f32⟩
  | .hbm, ⟨23, _⟩ => ⟨S16x4096x32, .f32⟩
  | .hbm, ⟨24, _⟩ => ⟨S_, .f32⟩
  | .hbm, ⟨25, _⟩ => ⟨S16x4096, .f32⟩
  | .hbm, ⟨26, _⟩ => ⟨S_, .f32⟩
  | .hbm, ⟨27, _⟩ => ⟨S16x4096, .f32⟩
  | .hbm, ⟨28, _⟩ => ⟨S16x4096, .f32⟩
  | .hbm, ⟨29, _⟩ => ⟨S16x4096x1, .f32⟩
  | .hbm, ⟨30, _⟩ => ⟨S16x4096x32, .f32⟩
  | .hbm, ⟨31, _⟩ => ⟨S16x4096x32, .f32⟩
  | .hbm, ⟨32, _⟩ => ⟨S16x4096x32, .f32⟩
  | .hbm, ⟨33, _⟩ => ⟨S_, .f32⟩
  | .hbm, ⟨34, _⟩ => ⟨S16x4096, .f32⟩
  | .hbm, ⟨35, _⟩ => ⟨S16x4096x1, .f32⟩
  | .hbm, ⟨36, _⟩ => ⟨S16x4096x32, .f32⟩
  | .hbm, ⟨37, _⟩ => ⟨S16x4096x32, .f32⟩
  | .hbm, ⟨38, _⟩ => ⟨S16x32x512, .f32⟩
  | .hbm, ⟨39, _⟩ => ⟨S_, .f32⟩
  | .hbm, ⟨40, _⟩ => ⟨S16x32, .f32⟩
  | .hbm, ⟨41, _⟩ => ⟨S16x32x1, .f32⟩
  | .hbm, ⟨42, _⟩ => ⟨S1x32x512, .f32⟩
  | .hbm, ⟨43, _⟩ => ⟨S16x32x512, .f32⟩
  | .hbm, ⟨44, _⟩ => ⟨S16x32x512, .f32⟩
  | .hbm, ⟨45, _⟩ => ⟨S16x32x512, .f32⟩
  | .hbm, ⟨46, _⟩ => ⟨S16x32x512, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  shapeCasts_S16x512x64x64_S16x512x4096 : S16x512x64x64.ShapeCasts S16x512x4096
  transposes_S16x512x4096_S16x4096x512_0_2_1 : S16x512x4096.Transposes [0, 2, 1] S16x4096x512
  reducesTo_S16x4096x512_S16x4096_d2 : S16x4096x512.ReducesTo [2] S16x4096
  h_S_ : 0 < S_.numel
  reducesTo_S32x512_S32_d1 : S32x512.ReducesTo [1] S32
  bcast_S16x4096_S16x4096x1_0_1 : S16x4096.BroadcastsInDim S16x4096x1 (![0, 1] : Fin 2 → Fin S16x4096x1.rank)
  bcast_S_S16x4096x32 : S_.BroadcastsInDim S16x4096x32 (![] : Fin 0 → Fin S16x4096x32.rank)
  bcast_S16x4096x1_S16x4096x32_0_1_2 : S16x4096x1.BroadcastsInDim S16x4096x32 (![0, 1, 2] : Fin 3 → Fin S16x4096x32.rank)
  bcast_S32_S1x1x32_2 : S32.BroadcastsInDim S1x1x32 (![2] : Fin 1 → Fin S1x1x32.rank)
  bcast_S1x1x32_S16x4096x32_0_1_2 : S1x1x32.BroadcastsInDim S16x4096x32 (![0, 1, 2] : Fin 3 → Fin S16x4096x32.rank)
  reducesTo_S16x4096x32_S16x4096_d2 : S16x4096x32.ReducesTo [2] S16x4096
  bcast_S_S16x4096 : S_.BroadcastsInDim S16x4096 (![] : Fin 0 → Fin S16x4096.rank)
  reducesTo_S16x4096x32_S16x32_d1 : S16x4096x32.ReducesTo [1] S16x32
  bcast_S16x32_S16x32x1_0_1 : S16x32.BroadcastsInDim S16x32x1 (![0, 1] : Fin 2 → Fin S16x32x1.rank)
  bcast_S32x512_S1x32x512_1_2 : S32x512.BroadcastsInDim S1x32x512 (![1, 2] : Fin 2 → Fin S1x32x512.rank)
  bcast_S16x32x1_S16x32x512_0_1_2 : S16x32x1.BroadcastsInDim S16x32x512 (![0, 1, 2] : Fin 3 → Fin S16x32x512.rank)
  bcast_S1x32x512_S16x32x512_0_1_2 : S1x32x512.BroadcastsInDim S16x32x512 (![0, 1, 2] : Fin 3 → Fin S16x32x512.rank)
  dot_S16x4096x512_S32x512_S16x4096x32_2_1_01_0_n_n_wf : DotDims.WF S16x4096x512 S32x512 S16x4096x32 [2] [1] [0, 1] [0] [] []
  dot_S16x4096x32_S16x4096x512_S16x32x512_1_1_2_2_0_0_wf : DotDims.WF S16x4096x32 S16x4096x512 S16x32x512 [1] [1] [2] [2] [0] [0]

variable [Facts₀]

def dot_S16x4096x512_S32x512_S16x4096x32_2_1_01_0_n_n : DotDims S16x4096x512 S32x512 S16x4096x32 where
  lhsContracting := [2]
  rhsContracting := [1]
  lhsNonContracting := [0, 1]
  rhsNonContracting := [0]
  lhsBatch := []
  rhsBatch := []
  wf := dot_S16x4096x512_S32x512_S16x4096x32_2_1_01_0_n_n_wf
def dot_S16x4096x32_S16x4096x512_S16x32x512_1_1_2_2_0_0 : DotDims S16x4096x32 S16x4096x512 S16x32x512 where
  lhsContracting := [1]
  rhsContracting := [1]
  lhsNonContracting := [2]
  rhsNonContracting := [2]
  lhsBatch := [0]
  rhsBatch := [0]
  wf := dot_S16x4096x32_S16x4096x512_S16x32x512_1_1_2_2_0_0_wf

class Facts : Prop extends Facts₀ where

variable [Facts]
-- ==== Proof.LibFeatureFold.lean ====
/-
  The nine-feature fold. For real data, the contraction of the masked feature vector
  [x, y, z, e, x - cx, y - cy, cx, cy, zc] with nine real weights equals the mask times a five-term
  combination with folded weights (w0 + w4, w1 + w5, w6 - w4, w7 - w5) plus a per-pillar offset; both
  are the same real number. Also: extended reals that are reals are closed under +, -, *, negation,
  max, min and finite sums, and the coercion of a finite real sum is the sum of the coercions.
-/
import Idealize.ShloMosaic.PureOps.Ideal
import Mathlib.Algebra.BigOperators.Fin
import Mathlib.Tactic.Ring

noncomputable section

namespace Cert.Lib.FeatureFold

open Idealize.ShloMosaic

/-! ### Extended reals that are reals -/

/-- An extended real that is (the coercion of) a real. -/
def IsReal (a : EReal) : Prop := ∃ r : ℝ, a = (r : EReal)

theorem isReal_coe (r : ℝ) : IsReal (r : EReal) := ⟨r, rfl⟩

theorem isReal_zero : IsReal 0 := ⟨0, rfl⟩

theorem isReal_one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_choice a b with h | h <;> rw [h] <;> assumption

theorem IsReal.min {a b : EReal} (ha : IsReal a) (hb : IsReal b) : IsReal (min a b) := by
  rcases min_choice a b with h | h <;> rw [h] <;> assumption

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- Division of a real by a nonzero real is a real. -/
theorem IsReal.div_coe {a : EReal} (ha : IsReal a) {n : ℝ} (hn : n ≠ 0) : IsReal (Ideal.div a (n : EReal)) := by
  rw [Ideal.div_coe hn]; exact ha.mul (isReal_coe _)

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A contraction of two real vectors, read on the extended reals, is the real contraction. -/
theorem coe_sum_mul {ι : Type*} (s : Finset ι) (f g : ι → ℝ) :
    (∑ i ∈ s, (f i : EReal) * (g i : EReal)) = ((∑ i ∈ s, f i * g i : ℝ) : EReal) := by
  simp only [← EReal.coe_mul, ← coe_sum]

/-! ### The fold -/

/-- A sum over nine indices, written out. -/
theorem sum_fin9 {M : Type*} [AddCommMonoid M] (g : Fin 9 → M) :
    ∑ i, g i = g 0 + g 1 + g 2 + g 3 + g 4 + g 5 + g 6 + g 7 + g 8 := by
  rw [Fin.sum_univ_castSucc, Fin.sum_univ_eight]
  rfl

/-- The folded form as a real: mask times (five folded terms plus the per-pillar offset). -/
def foldR (x y z e cx cy zc mk : ℝ) (w : Fin 9 → ℝ) : ℝ :=
  mk * ((((x * (w 0 + w 4) + y * (w 1 + w 5)) + z * w 2) + e * w 3)
    + ((cx * (w 6 - w 4) + cy * (w 7 - w 5)) + zc * w 8))

/-- The nine-term contraction of the masked features with the weights, over the reals. -/
theorem concat_real (x y z e cx cy zc mk : ℝ) (w : Fin 9 → ℝ) :
    (∑ i : Fin 9, ((![x, y, z, e, x - cx, y - cy, cx, cy, zc] : Fin 9 → ℝ) i * mk) * w i)
      = foldR x y z e cx cy zc mk w := by
  rw [sum_fin9]
  show (x * mk) * w 0 + (y * mk) * w 1 + (z * mk) * w 2 + (e * mk) * w 3 + ((x - cx) * mk) * w 4
      + ((y - cy) * mk) * w 5 + (cx * mk) * w 6 + (cy * mk) * w 7 + (zc * mk) * w 8 = _
  unfold foldR
  ring

/-- The nine-term contraction on the extended reals is the real folded value. -/
theorem concat_ereal (x y z e cx cy zc mk : ℝ) (w : Fin 9 → ℝ) :
    (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal))
      = ((foldR x y z e cx cy zc mk w : ℝ) : EReal) := by
  rw [sum_fin9]
  show ((x : EReal) * (mk : EReal)) * (w 0 : EReal) + ((y : EReal) * (mk : EReal)) * (w 1 : EReal)
      + ((z : EReal) * (mk : EReal)) * (w 2 : EReal) + ((e : EReal) * (mk : EReal)) * (w 3 : EReal)
      + (((x : EReal) - (cx : EReal)) * (mk : EReal)) * (w 4 : EReal)
      + (((y : EReal) - (cy : EReal)) * (mk : EReal)) * (w 5 : EReal)
      + ((cx : EReal) * (mk : EReal)) * (w 6 : EReal) + ((cy : EReal) * (mk : EReal)) * (w 7 : EReal)
      + ((zc : EReal) * (mk : EReal)) * (w 8 : EReal) = _
  simp only [← EReal.coe_mul, ← EReal.coe_add, ← EReal.coe_sub]
  exact congrArg _ (by unfold foldR; ring)

/-- The folded spelling on the extended reals is the same real. -/
theorem folded_ereal (x y z e cx cy zc mk : ℝ) (w : Fin 9 → ℝ) :
    (mk : EReal) * (((((x : EReal) * ((w 0 : EReal) + (w 4 : EReal)) + (y : EReal) * ((w 1 : EReal) + (w 5 : EReal)))
        + (z : EReal) * (w 2 : EReal)) + (e : EReal) * (w 3 : EReal))
      + (((cx : EReal) * ((w 6 : EReal) - (w 4 : EReal)) + (cy : EReal) * ((w 7 : EReal) - (w 5 : EReal)))
        + (zc : EReal) * (w 8 : EReal)))
      = ((foldR x y z e cx cy zc mk w : ℝ) : EReal) := by
  simp only [← EReal.coe_mul, ← EReal.coe_add, ← EReal.coe_sub]
  rfl

/-- The fold: the nine-term contraction equals the folded spelling, on the extended reals. -/
theorem concat_eq_folded (x y z e cx cy zc mk : ℝ) (w : Fin 9 → ℝ) :
    (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal))
      = (mk : EReal) * (((((x : EReal) * ((w 0 : EReal) + (w 4 : EReal)) + (y : EReal) * ((w 1 : EReal) + (w 5 : EReal)))
        + (z : EReal) * (w 2 : EReal)) + (e : EReal) * (w 3 : EReal))
      + (((cx : EReal) * ((w 6 : EReal) - (w 4 : EReal)) + (cy : EReal) * ((w 7 : EReal) - (w 5 : EReal)))
        + (zc : EReal) * (w 8 : EReal))) :=
  (concat_ereal x y z e cx cy zc mk w).trans (folded_ereal x y z e cx cy zc mk w).symm

/-- The folded value is a real. -/
theorem concat_isReal (x y z e cx cy zc mk : ℝ) (w : Fin 9 → ℝ) :
    IsReal (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal)) :=
  ⟨_, concat_ereal x y z e cx cy zc mk w⟩

end Cert.Lib.FeatureFold

end
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.Spec.lean ====
/-
  The mathematics of the codebook encoder, on the extended reals.

  For one batch entry, a token is a column `x = X · n` of 512 reals; its score against codeword `k` is
  `S k · ((Σ_c x_c² − 2 · Σ_c C k c · x_c) + q k)` (`q k` standing for the codeword's squared length `Σ_c (C k c)²`, computed once beforehand), its weight the softmax of the 32 scores (shifted by their
  maximum), and the result at `(k, c)` is `Σ_n w_n · X c n − (Σ_n w_n) · C k c` over the 4096 tokens.

  The tiled computation forms the same quantity tile by tile: for each of the two tiles of 2048 tokens it takes
  `Σ_e w · x − (Σ_e w) · C k c` over the tile and adds the two.  Both are the same number because a sum over 4096
  consecutive tokens is the sum over the two halves, and because `(W₀ + W₁) · c = W₀ · c + W₁ · c` and
  `(a₀ − b₀) + (a₁ − b₁) = (a₀ + a₁) − (b₀ + b₁)` for REAL numbers.  These two laws fail at the infinities, so the proof
  first shows that every quantity in sight is a real: the scores (sums and products of reals), their maximum (one of
  them, there being at least one), the exponentials (positive reals), their sum (a positive real, so not zero) and
  hence each weight (a real divided by a nonzero real).
-/
import proofs.«117746_j40638980554922_2_alg».proof.Proof.LibFeatureFold
import proofs.«117746_j40638980554922_2_alg».proof.Proof.LibBlockSum
import Idealize.ShloMosaic.PureOps.Ideal
import Idealize.ShloMosaic.PureOps.Ideal.Laws

noncomputable section

namespace Cert.VQ

open Cert.Lib.FeatureFold Idealize.ShloMosaic

/-- Token `e` of tile `j`, among the 4096 tokens: number `e + 2048 · j`. -/
def col (j : Fin 2) (e : Fin 2048) : Fin 4096 := ⟨e.val + 2048 * j.val, by omega⟩

variable (two ninf : EReal)

/-- The score of the token `x` against codeword `k`. -/
def score (x : Fin 512 → EReal) (C : Fin 32 → Fin 512 → EReal) (S q : Fin 32 → EReal) (k : Fin 32) : EReal :=
  S k * (((∑ c, x c * x c) - two * ∑ c, C k c * x c) + q k)

/-- The largest of a token's 32 scores, folded from `ninf`. -/
def top (x : Fin 512 → EReal) (C : Fin 32 → Fin 512 → EReal) (S q : Fin 32 → EReal) : EReal :=
  Finset.univ.fold max ninf (score two x C S q)

/-- The softmax weight of codeword `k` for the token `x`. -/
def wgt (x : Fin 512 → EReal) (C : Fin 32 → Fin 512 → EReal) (S q : Fin 32 → EReal) (k : Fin 32) : EReal :=
  Ideal.div (Ideal.exp (score two x C S q k - top two ninf x C S q))
    (∑ k', Ideal.exp (score two x C S q k' - top two ninf x C S q))

/-- One tile's contribution at `(k, c)`: the weighted sum of the tile's tokens less the tile's total weight times the codeword. -/
def tile (X : Fin 512 → Fin 4096 → EReal) (C : Fin 32 → Fin 512 → EReal) (S q : Fin 32 → EReal)
    (j : Fin 2) (k : Fin 32) (c : Fin 512) : EReal :=
  (∑ e : Fin 2048, wgt two ninf (fun c' => X c' (col j e)) C S q k * X c (col j e))
    - (∑ e : Fin 2048, wgt two ninf (fun c' => X c' (col j e)) C S q k) * C k c

/-- The tiled result: the two tiles' contributions added. -/
def tiled (X : Fin 512 → Fin 4096 → EReal) (C : Fin 32 → Fin 512 → EReal) (S q : Fin 32 → EReal)
    (k : Fin 32) (c : Fin 512) : EReal :=
  tile two ninf X C S q 0 k c + tile two ninf X C S q 1 k c

/-- The one-pass result over all 4096 tokens. -/
def whole (X : Fin 512 → Fin 4096 → EReal) (C : Fin 32 → Fin 512 → EReal) (S q : Fin 32 → EReal)
    (k : Fin 32) (c : Fin 512) : EReal :=
  (∑ n : Fin 4096, wgt two ninf (fun c' => X c' n) C S q k * X c n)
    - (∑ n : Fin 4096, wgt two ninf (fun c' => X c' n) C S q k) * C k c

/-! ## Everything is a real -/

/-- A fold of `max` is its start or one of the folded values. -/
theorem fold_max_mem {ι : Type*} (s : Finset ι) (b : EReal) (f : ι → EReal) :
    s.fold max b f = b ∨ ∃ i ∈ s, s.fold max b f = f i := by
  classical
  induction s using Finset.induction_on with
  | empty => exact Or.inl rfl
  | insert a s ha ih =>
    rw [Finset.fold_insert ha]
    rcases max_choice (f a) (s.fold max b f) with h | h
    · exact Or.inr ⟨a, Finset.mem_insert_self a s, h⟩
    · rw [h]
      rcases ih with h' | ⟨i, hi, h'⟩
      · exact Or.inl h'
      · exact Or.inr ⟨i, Finset.mem_insert_of_mem hi, h'⟩

/-- The maximum of finitely many reals, at least one, folded from `⊥`, is a real. -/
theorem isReal_fold_max {n : ℕ} (f : Fin (n + 1) → EReal) (hf : ∀ k, IsReal (f k)) :
    IsReal (Finset.univ.fold max ⊥ f) := by
  rcases fold_max_mem Finset.univ ⊥ f with h | ⟨i, _, h⟩
  · exfalso
    have h0 : f 0 ≤ Finset.univ.fold max ⊥ f := (Finset.le_fold_max _).mpr (Or.inr ⟨0, Finset.mem_univ _, le_refl _⟩)
    obtain ⟨r, hr⟩ := hf 0
    rw [h, hr] at h0
    exact absurd h0 (not_le.mpr (EReal.bot_lt_coe r))
  · rw [h]; exact hf i

/-- Folding `max` from `b` never goes below `b`. -/
theorem max_fold_max {ι : Type*} (s : Finset ι) (b : EReal) (f : ι → EReal) :
    max b (s.fold max b f) = s.fold max b f :=
  max_eq_right ((Finset.le_fold_max _).mpr (Or.inl (le_refl _)))

variable {two}

theorem isReal_score (htwo : IsReal two) {x : Fin 512 → EReal} {C : Fin 32 → Fin 512 → EReal} {S q : Fin 32 → EReal}
    (hx : ∀ c, IsReal (x c)) (hC : ∀ k c, IsReal (C k c)) (hS : ∀ k, IsReal (S k)) (hq : ∀ k, IsReal (q k)) (k : Fin 32) :
    IsReal (score two x C S q k) :=
  (hS k).mul ((((IsReal.sum _ _ fun c _ => (hx c).mul (hx c)).sub
    (htwo.mul (IsReal.sum _ _ fun c _ => (hC k c).mul (hx c)))).add (hq k)))

/-- The exponential of a real is a positive real. -/
theorem exp_real (r : ℝ) : Ideal.exp (r : EReal) = ((Real.exp r : ℝ) : EReal) := rfl

/-- Each softmax weight of a real token against real codewords and scales is a real. -/
theorem isReal_wgt (htwo : IsReal two) {x : Fin 512 → EReal} {C : Fin 32 → Fin 512 → EReal} {S q : Fin 32 → EReal}
    (hx : ∀ c, IsReal (x c)) (hC : ∀ k c, IsReal (C k c)) (hS : ∀ k, IsReal (S k)) (hq : ∀ k, IsReal (q k)) (k : Fin 32) :
    IsReal (wgt two ⊥ x C S q k) := by
  have hs := isReal_score htwo hx hC hS hq
  obtain ⟨m, hm⟩ : IsReal (top two ⊥ x C S q) := isReal_fold_max (n := 31) _ hs
  choose a ha using hs
  unfold wgt
  rw [hm]
  simp only [ha, ← EReal.coe_sub, exp_real, ← coe_sum]
  have hpos : (∑ k' : Fin 32, Real.exp (a k' - m)) ≠ 0 :=
    ne_of_gt (Finset.sum_pos (fun _ _ => Real.exp_pos _) Finset.univ_nonempty)
  rw [Ideal.div_coe hpos]
  exact (isReal_coe _).mul (isReal_coe _)

/-! ## The two arrangements agree -/

/-- A sum over the 4096 tokens is the sum over tile 0 plus the sum over tile 1. -/
theorem sum_tokens {M : Type*} [AddCommMonoid M] (f : Fin 4096 → M) :
    ∑ n : Fin 4096, f n = (∑ e : Fin 2048, f (col 0 e)) + ∑ e : Fin 2048, f (col 1 e) := by
  have h := Cert.Lib.BlockSum.sum_fin_mul_fin 2 2048 f
  rw [Fin.sum_univ_two] at h
  exact h

/-- For real weights, tokens and codeword entry, the two tiles' contributions add up to the one-pass result. -/
theorem two_tiles (w x : Fin 4096 → ℝ) (c : ℝ) :
    ((∑ e : Fin 2048, (w (col 0 e) : EReal) * (x (col 0 e) : EReal)) - (∑ e : Fin 2048, (w (col 0 e) : EReal)) * (c : EReal))
      + ((∑ e : Fin 2048, (w (col 1 e) : EReal) * (x (col 1 e) : EReal)) - (∑ e : Fin 2048, (w (col 1 e) : EReal)) * (c : EReal))
    = (∑ n : Fin 4096, (w n : EReal) * (x n : EReal)) - (∑ n : Fin 4096, (w n : EReal)) * (c : EReal) := by
  rw [sum_tokens (fun n => (w n : EReal) * (x n : EReal)), sum_tokens (fun n => (w n : EReal))]
  simp only [← EReal.coe_mul, ← coe_sum, ← EReal.coe_sub, ← EReal.coe_add]
  congr 1
  ring

/-- THE LAW: for real data the tiled result is the one-pass result. -/
theorem tiled_eq_whole (htwo : IsReal two) {X : Fin 512 → Fin 4096 → EReal} {C : Fin 32 → Fin 512 → EReal} {S q : Fin 32 → EReal}
    (hX : ∀ c n, IsReal (X c n)) (hC : ∀ k c, IsReal (C k c)) (hS : ∀ k, IsReal (S k)) (hq : ∀ k, IsReal (q k)) (k : Fin 32) (c : Fin 512) :
    tiled two ⊥ X C S q k c = whole two ⊥ X C S q k c := by
  have hw : ∀ n, IsReal (wgt two ⊥ (fun c' => X c' n) C S q k) := fun n => isReal_wgt htwo (fun c' => hX c' n) hC hS hq k
  choose w hw using hw
  choose x hx using hX c
  obtain ⟨cc, hcc⟩ := hC k c
  unfold tiled tile whole
  simp only [hw, hx, hcc]
  exact two_tiles w x cc

end Cert.VQ

end
-- ==== Proof.Finite.lean ====
/-
  The precondition read: every entry of the three inputs is a real number.

  The precondition compares each entry's absolute value `max(x, −x)` with `+∞` and takes the conjunction of all the
  comparisons.  If the conjunction holds, each comparison holds; and an extended real with `max(x, −x) < +∞` is
  neither infinity (at `+∞` and at `−∞` the absolute value is `+∞`), so it is a real.
-/
import proofs.«117746_j40638980554922_2_alg».proof.Pre_finite_inputs
import proofs.«117746_j40638980554922_2_alg».proof.Proof.Gen.Pre_finite_inputs
import proofs.«117746_j40638980554922_2_alg».proof.Proof.LibFeatureFold
import Idealize.ShloMosaic.Lib.ReduceAll
import Idealize.ShloMosaic.Lib.ValueIdx
import Idealize.ShloMosaic.Lib.Affine
import Idealize.ShloMosaic.PureOps.Ideal.Laws

noncomputable section

namespace Cert.Finite

open Cert.Pre_finite_inputs Idealize.ShloMosaic Cert.Lib.FeatureFold

instance : Subsingleton S_.Idx := ⟨fun a b => funext fun d => d.elim0⟩

/-- An extended real whose absolute value is below `+∞` is a real. -/
theorem isReal_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => exfalso; simp [Ideal.cmp] at h
  | coe r => exact ⟨r, rfl⟩
  | top => exfalso; simp [Ideal.cmp] at h

/-- Under the precondition every entry of every input is a real. -/
theorem inputs_real (a0 : FVec Ideal S16x512x64x64 .f32) (a1 : FVec Ideal S32x512 .f32) (a2 : FVec Ideal S32 .f32)
    (h : fn (F := Ideal) a0 a1 a2 = fun _ => 1#1) :
    (∀ i, IsReal (a0 i)) ∧ (∀ i, IsReal (a1 i)) ∧ (∀ i, IsReal (a2 i)) := by
  have h0 := congrFun h ValueIdx.ix0
  dsimp only [fn] at h0
  obtain ⟨h01, h2⟩ := IntOp.andi_eq_one.mp h0
  obtain ⟨h0', h1⟩ := IntOp.andi_eq_one.mp h01
  refine ⟨fun i => isReal_of_abs_lt _ ?_, fun i => isReal_of_abs_lt _ ?_, fun i => isReal_of_abs_lt _ ?_⟩
  · exact Host.reduce_andi_all _ _ _ _ _ h0' i
  · exact Host.reduce_andi_all _ _ _ _ _ h1 i
  · exact Host.reduce_andi_all _ _ _ _ _ h2 i

end Cert.Finite

end
-- ==== Proof.LibKeepdims.lean ====
/-
  Reading the pieces of a softmax over a rank-3 array at an index, for any extents `a × b × c`.

  A softmax along an axis takes a maximum and a sum along that axis, puts the reduced axis back with extent one
  ("keepdims") and broadcasts it over the array again.  The lemmas here read each of those steps at an index written by
  its coordinates:

  * an `[a, b]` array cast to `[a, b, 1]` and an `[a, b, 1]` array broadcast to `[a, b, c]` (the last axis reduced);
  * an `[a, c]` array cast to `[a, 1, c]` and an `[a, 1, c]` array broadcast to `[a, b, c]` (the middle axis reduced);
  * the index over `(i, j)` with coordinate `k` inserted on the last axis is `(i, j, k)`, and over `(i, k)` with `j`
    inserted on the middle axis it is `(i, j, k)`;
  * hence, on the extended reals, a vector maximum along the last or the middle axis is the fold of `max` over that
    axis's coordinates, a vector sum the sum over them, and the host's maximum along the last axis the same fold.
-/
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type} {a b c : ℕ}

/-! ## The reduced axis put back with extent one, and broadcast again -/

/-- An `[a, b]` array cast to `[a, b, 1]` reads, at `(i, j, u)`, the operand at `(i, j)`. -/
theorem shapeCast_ab_ab1_apply (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

/-- An `[a, c]` array cast to `[a, 1, c]` reads, at `(i, u, k)`, the operand at `(i, k)`. -/
theorem shapeCast_ac_a1c_apply (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show k.val = if c = 1 then 0 else k.val
    split
    · have := k.isLt; omega
    · rfl

/-! ## The index with the reduced coordinate inserted -/

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

/-! ## Maxima and sums along one axis, on the extended reals -/

variable {φ : FTy}

/-- A vector maximum along the last axis, at `(i, j)`: the fold of `max` from the accumulator's value over `k`. -/
theorem multiReduction_max_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) fun k => src (ix3 i j k) := by
  refine (Ideal.multiReduction_maximumf_single src acc h hφ hacc (ix2 i j)).trans ?_
  refine congrArg (Finset.fold max (Ideal.ofBits φ acc) · Finset.univ) (funext fun k => ?_)
  exact congrArg src (lift_last h i j k)

/-- A vector sum along the last axis, at `(i, j)`: the sum over `k`. -/
theorem multiReduction_add_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  exact Finset.sum_congr rfl fun k _ => congrArg src (lift_last h i j k)

/-- A vector maximum along the middle axis, at `(i, k)`: the fold of `max` from the accumulator's value over `j`. -/
theorem multiReduction_max_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) fun j => src (ix3 i j k) := by
  refine (Ideal.multiReduction_maximumf_single src acc h hφ hacc (ix2 i k)).trans ?_
  refine congrArg (Finset.fold max (Ideal.ofBits φ acc) · Finset.univ) (funext fun j => ?_)
  exact congrArg src (lift_middle h i j k)

/-- A vector sum along the middle axis, at `(i, k)`: the sum over `j`. -/
theorem multiReduction_add_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  exact Finset.sum_congr rfl fun j _ => congrArg src (lift_middle h i j k)

/-- The host's maximum along the last axis, at `(i, j)`: the fold of `max` from the initial value over `k`. -/
theorem hostReduce_max_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) fun k => x (ix3 i j k) := by
  refine (Host.reduce_eq_fold_single (FloatOps.maximumf (F := Ideal) (φ := φ)) x init h' h hu (ix2 i j)).trans ?_
  refine congrArg (Finset.fold max (init (Shape.Idx.first hu)) · Finset.univ) (funext fun k => ?_)
  exact congrArg x (lift_last h i j k)

end Idealize.ShloMosaic.Keepdims

end
-- ==== Proof.RefSide.lean ====
/-
  The reference, read entry by entry on the extended reals.

  The reference transposes the tokens to `[batch, token, coordinate]`, so entry `(b, n, c)` of its token array is
  entry `(b, c, n)` of the reshaped input.  Its score of token `n` against codeword `k` is
  `s_k · ((Σ_c x_c² − 2 · Σ_c x_c · C_kc) + Σ_c C_kc²)`: the same number as the tiled side's score, the products inside the
  middle sum commuted and each host sum's zero start dropped (`0 + a = a`, true of every extended real).  Its row maximum
  is `max(−∞-word, fold of max from the −∞-word)`, which is that fold, because a fold of `max` never goes below its
  start.  The softmax weight, the weighted sum over all 4096 tokens and the total weight then read off directly.
-/
import proofs.«117746_j40638980554922_2_alg».proof.Proof.Gen.ReferenceIdeal.Read
import proofs.«117746_j40638980554922_2_alg».proof.Proof.Spec
import proofs.«117746_j40638980554922_2_alg».proof.Proof.LibKeepdims
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.VQ

/-- Two indices of a small literal shape with equal coordinates are equal. -/
macro "coords1" : tactic => `(tactic| (funext a; apply Fin.ext; match a with | ⟨0, _⟩ => rfl))
macro "coords2" : tactic => `(tactic| (funext a; apply Fin.ext; match a with | ⟨0, _⟩ => rfl | ⟨1, _⟩ => rfl))
macro "coords3" : tactic => `(tactic| (funext a; apply Fin.ext; match a with | ⟨0, _⟩ => rfl | ⟨1, _⟩ => rfl | ⟨2, _⟩ => rfl))

abbrev two : EReal := Ideal.ofBits .f32 0x40000000#32
abbrev ninf : EReal := Ideal.ofBits .f32 0xFF800000#32

variable (x0 : FVec Ideal S16x512x64x64 .f32) (x1 : FVec Ideal S32x512 .f32) (x2 : FVec Ideal S32 .f32)

/-- The reshaped input at `(b, c, n)`. -/
abbrev X (b : Fin 16) (c : Fin 512) (n : Fin 4096) : EReal := val_main_v0 (F := Ideal) x0 (ix3 b c n)
/-- The codewords' squared lengths. -/
abbrev Q (k : Fin 32) : EReal := ∑ c : Fin 512, x1 (ix2 k c) * x1 (ix2 k c)

theorem tokens_apply (b : Fin 16) (n : Fin 4096) (c : Fin 512) :
    val_main_v1 (F := Ideal) x0 (ix3 b n c) = X x0 b c n := by
  rw [val_main_v1_apply, show idx_main_v1 (ix3 b n c) = ix3 b c n from by coords3]

theorem sq_apply (b : Fin 16) (n : Fin 4096) :
    val_main_v3 (F := Ideal) x0 (ix2 b n) = ∑ c : Fin 512, X x0 b c n * X x0 b c n := by
  rw [val_main_v3_apply]
  show Ideal.ofBits .f32 0x00000000#32 + _ = _
  rw [Ideal.ofBits_zero_f32, zero_add]
  refine Finset.sum_congr rfl fun c _ => ?_
  rw [val_main_v2_apply, show idx_main_v3 (ix2 b n) c = ix3 b n c from by coords3, tokens_apply]
  rfl

theorem csq_apply (k : Fin 32) : val_main_v5 (F := Ideal) x1 (ix1 k) = Q x1 k := by
  rw [val_main_v5_apply]
  show Ideal.ofBits .f32 0x00000000#32 + _ = _
  rw [Ideal.ofBits_zero_f32, zero_add]
  refine Finset.sum_congr rfl fun c _ => ?_
  rw [val_main_v4_apply, show idx_main_v5 (ix1 k) c = ix2 k c from by coords2]
  rfl

theorem dot_apply (b : Fin 16) (n : Fin 4096) (k : Fin 32) :
    val_main_v6 (F := Ideal) x0 x1 (ix3 b n k) = ∑ c : Fin 512, x1 (ix2 k c) * X x0 b c n := by
  rw [val_main_v6_apply]
  refine Finset.sum_congr rfl fun c _ => ?_
  rw [show lidx_main_v6 (ix3 b n k) c = ix3 b n c from by coords3, show ridx_main_v6 (ix3 b n k) c = ix2 k c from by coords2,
    tokens_apply, mul_comm]

theorem score_apply (b : Fin 16) (n : Fin 4096) (k : Fin 32) :
    val_main_v17 (F := Ideal) x0 x1 x2 (ix3 b n k)
      = score two (fun c => X x0 b c n) (fun k c => x1 (ix2 k c)) (fun k => x2 (ix1 k)) (Q x1) k := by
  rw [val_main_v17_apply, val_main_v16_apply, val_main_v15_apply, val_main_v14_apply, val_main_v13_apply, val_main_v12_apply,
    val_main_v11_apply, val_main_v10_apply, val_main_v7_apply, val_main_v9_apply, val_main_v8_apply,
    show idx_main_v15 (idx_main_v16 (ix3 b n k)) = ix1 k from by coords1,
    show idx_main_v12 (idx_main_v13 (ix3 b n k)) = ix1 k from by coords1,
    show idx_main_v7 (idx_main_v10 (ix3 b n k)) = ix2 b n from by coords2,
    sq_apply, csq_apply, dot_apply]
  rfl

theorem top_apply (b : Fin 16) (n : Fin 4096) :
    val_main_v18 (F := Ideal) x0 x1 x2 (ix2 b n)
      = top two ninf (fun c => X x0 b c n) (fun k c => x1 (ix2 k c)) (fun k => x2 (ix1 k)) (Q x1) :=
  (Keepdims.hostReduce_max_last (a := 16) (b := 4096) (c := 32) (val_main_v17 (F := Ideal) x0 x1 x2) (val_main_cst_2 (F := Ideal))
      reducesTo_S16x4096x32_S16x4096_d2 (by decide) h_S_ b n).trans
    (congrArg (Finset.fold max ninf · Finset.univ) (funext fun k => score_apply x0 x1 x2 b n k))

theorem top'_apply (b : Fin 16) (n : Fin 4096) :
    val_main_v20 (F := Ideal) x0 x1 x2 (ix2 b n)
      = top two ninf (fun c => X x0 b c n) (fun k c => x1 (ix2 k c)) (fun k => x2 (ix1 k)) (Q x1) := by
  rw [val_main_v20_apply, top_apply]
  exact max_fold_max _ _ _

theorem exp_apply (b : Fin 16) (n : Fin 4096) (k : Fin 32) :
    val_main_v24 (F := Ideal) x0 x1 x2 (ix3 b n k)
      = Ideal.exp (score two (fun c => X x0 b c n) (fun k c => x1 (ix2 k c)) (fun k => x2 (ix1 k)) (Q x1) k
        - top two ninf (fun c => X x0 b c n) (fun k c => x1 (ix2 k c)) (fun k => x2 (ix1 k)) (Q x1)) := by
  rw [val_main_v24_apply, val_main_v23_apply, val_main_v22_apply, val_main_v21_apply,
    show idx_main_v21 (idx_main_v22 (ix3 b n k)) = ix2 b n from by coords2, score_apply, top'_apply]
  rfl

theorem den_apply (b : Fin 16) (n : Fin 4096) :
    val_main_v25 (F := Ideal) x0 x1 x2 (ix2 b n)
      = ∑ k' : Fin 32, Ideal.exp (score two (fun c => X x0 b c n) (fun k c => x1 (ix2 k c)) (fun k => x2 (ix1 k)) (Q x1) k'
        - top two ninf (fun c => X x0 b c n) (fun k c => x1 (ix2 k c)) (fun k => x2 (ix1 k)) (Q x1)) := by
  rw [val_main_v25_apply]
  show Ideal.ofBits .f32 0x00000000#32 + _ = _
  rw [Ideal.ofBits_zero_f32, zero_add]
  refine Finset.sum_congr rfl fun k' _ => ?_
  rw [show idx_main_v25 (ix2 b n) k' = ix3 b n k' from by coords3, exp_apply]

theorem wgt_apply (b : Fin 16) (n : Fin 4096) (k : Fin 32) :
    val_main_v28 (F := Ideal) x0 x1 x2 (ix3 b n k)
      = wgt two ninf (fun c => X x0 b c n) (fun k c => x1 (ix2 k c)) (fun k => x2 (ix1 k)) (Q x1) k := by
  rw [val_main_v28_apply, val_main_v27_apply, val_main_v26_apply,
    show idx_main_v26 (idx_main_v27 (ix3 b n k)) = ix2 b n from by coords2, exp_apply, den_apply]
  rfl

/-- The reference's result at `(b, k, c)` is the one-pass result over batch entry `b`'s tokens. -/
theorem result_apply (b : Fin 16) (k : Fin 32) (c : Fin 512) :
    val_main_v36 (F := Ideal) x0 x1 x2 (ix3 b k c)
      = whole two ninf (fun c n => X x0 b c n) (fun k c => x1 (ix2 k c)) (fun k => x2 (ix1 k)) (Q x1) k c := by
  have h29 : val_main_v29 (F := Ideal) x0 x1 x2 (ix3 b k c)
      = ∑ n : Fin 4096, wgt two ninf (fun c' => X x0 b c' n) (fun k c => x1 (ix2 k c)) (fun k => x2 (ix1 k)) (Q x1) k * X x0 b c n := by
    rw [val_main_v29_apply]
    refine Finset.sum_congr rfl fun n _ => ?_
    rw [show lidx_main_v29 (ix3 b k c) n = ix3 b n k from by coords3, show ridx_main_v29 (ix3 b k c) n = ix3 b n c from by coords3,
      wgt_apply, tokens_apply]
  have h30 : val_main_v30 (F := Ideal) x0 x1 x2 (ix2 b k)
      = ∑ n : Fin 4096, wgt two ninf (fun c' => X x0 b c' n) (fun k c => x1 (ix2 k c)) (fun k => x2 (ix1 k)) (Q x1) k := by
    rw [val_main_v30_apply]
    show Ideal.ofBits .f32 0x00000000#32 + _ = _
    rw [Ideal.ofBits_zero_f32, zero_add]
    refine Finset.sum_congr rfl fun n _ => ?_
    rw [show idx_main_v30 (ix2 b k) n = ix3 b n k from by coords3, wgt_apply]
  rw [val_main_v36_apply, val_main_v35_apply, val_main_v34_apply, val_main_v33_apply, val_main_v32_apply, val_main_v31_apply,
    show idx_main_v31 (idx_main_v33 (ix3 b k c)) = ix2 b k from by coords2,
    show idx_main_v32 (idx_main_v34 (ix3 b k c)) = ix2 k c from by coords2, h29, h30]
  rfl

end Cert.ReferenceIdeal.RefValue

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibRowsProduct.lean ====
/-
  A product of two matrices taken row against row: `[a, k] × [b, k] → [a, b]`, the LAST axis of each operand
  contracted (the left operand times the transpose of the right one, without the transpose being formed).

  At output `(i, j)` the contraction's sum of products is the sum over `e : Fin k` of `lhs (i, e) * rhs (j, e)`:
  row `i` of the left operand against row `j` of the right one. Stated on the extended reals, for the vector
  unit's product into a zero accumulator and for the host's product.
-/
import Idealize.ShloMosaic.Lib.ValueIdx
import Idealize.ShloMosaic.PureOps.Ideal.Laws

noncomputable section

namespace Cert.LibRowsProduct

open Idealize.ShloMosaic Idealize.ShloMosaic.ValueIdx

variable {a b k : ℕ}

/-- The dimension numbers of a row-against-row product `[a, k] × [b, k] → [a, b]`: no batch axis, the last axis of
    each operand contracted, the first axes kept in order. -/
abbrev rowsDims (a k b : ℕ)
    (wf : DotDims.WF ⟨2, ![a, k]⟩ ⟨2, ![b, k]⟩ ⟨2, ![a, b]⟩ [1] [1] [0] [0] [] []) :
    DotDims ⟨2, ![a, k]⟩ ⟨2, ![b, k]⟩ ⟨2, ![a, b]⟩ where
  lhsContracting := [1]
  rhsContracting := [1]
  lhsNonContracting := [0]
  rhsNonContracting := [0]
  lhsBatch := []
  rhsBatch := []
  wf := wf

/-- The left operand's index at output `(i, j)` and contraction coordinate `e` is `(i, e)`. -/
theorem rows_lhsIdx (wf : DotDims.WF ⟨2, ![a, k]⟩ ⟨2, ![b, k]⟩ ⟨2, ![a, b]⟩ [1] [1] [0] [0] [] [])
    (i : Fin a) (j : Fin b) (e : Fin k) :
    (rowsDims a k b wf).lhsIdx (ix2 i j) ((contrEquiv1 (rowsDims a k b wf) k rfl rfl).symm e) = ix2 i e := by
  funext ax
  apply Fin.ext
  match ax with
  | ⟨0, _⟩ => rfl
  | ⟨1, _⟩ =>
    exact ((rowsDims a k b wf).lhsIdx_val_of_single rfl (ix2 i j) _).trans
      (contrEquiv1_symm_val (rowsDims a k b wf) k rfl rfl e)

/-- The right operand's index at output `(i, j)` and contraction coordinate `e` is `(j, e)`. -/
theorem rows_rhsIdx (wf : DotDims.WF ⟨2, ![a, k]⟩ ⟨2, ![b, k]⟩ ⟨2, ![a, b]⟩ [1] [1] [0] [0] [] [])
    (i : Fin a) (j : Fin b) (e : Fin k) :
    (rowsDims a k b wf).rhsIdx (ix2 i j) ((contrEquiv1 (rowsDims a k b wf) k rfl rfl).symm e) = ix2 j e := by
  funext ax
  apply Fin.ext
  match ax with
  | ⟨0, _⟩ => rfl
  | ⟨1, _⟩ =>
    exact ((rowsDims a k b wf).rhsIdx_val_of_single rfl (ix2 i j) _).trans
      (contrEquiv1_symm_val (rowsDims a k b wf) k rfl rfl e)

/-- The contraction's sum of products, over the contracted coordinate. -/
theorem rows_sum (wf : DotDims.WF ⟨2, ![a, k]⟩ ⟨2, ![b, k]⟩ ⟨2, ![a, b]⟩ [1] [1] [0] [0] [] [])
    (lhs : (⟨2, ![a, k]⟩ : Shape).Idx → EReal) (rhs : (⟨2, ![b, k]⟩ : Shape).Idx → EReal) (i : Fin a) (j : Fin b) :
    ∑ kk : (rowsDims a k b wf).contr.Idx,
        lhs ((rowsDims a k b wf).lhsIdx (ix2 i j) kk) * rhs ((rowsDims a k b wf).rhsIdx (ix2 i j) kk)
      = ∑ e : Fin k, lhs (ix2 i e) * rhs (ix2 j e) := by
  rw [← Equiv.sum_comp (contrEquiv1 (rowsDims a k b wf) k rfl rfl).symm]
  refine Finset.sum_congr rfl fun e _ => ?_
  rw [rows_lhsIdx wf i j e, rows_rhsIdx wf i j e]

/-- The vector unit's row-against-row product into a zero accumulator, at `(i, j)`: the sum over `e` of
    `lhs (i, e) * rhs (j, e)`. -/
theorem matmul_rows_apply {φ₁ φ₂ : FTy} (wf : DotDims.WF ⟨2, ![a, k]⟩ ⟨2, ![b, k]⟩ ⟨2, ![a, b]⟩ [1] [1] [0] [0] [] [])
    (prec : Option ContractPrecision) (lhs : FVec Ideal ⟨2, ![a, k]⟩ φ₁) (rhs : FVec Ideal ⟨2, ![b, k]⟩ φ₂)
    (i : Fin a) (j : Fin b) :
    FloatOps.matmul (rowsDims a k b wf) prec lhs rhs (constant ⟨2, ![a, b]⟩ .f32 0x00000000#32) (ix2 i j)
      = ∑ e : Fin k, lhs (ix2 i e) * rhs (ix2 j e) :=
  (Ideal.matmul_constant_zero_apply (rowsDims a k b wf) prec lhs rhs (ix2 i j)).trans (rows_sum wf lhs rhs i j)

/-- The host's row-against-row product, at `(i, j)`: the same sum. -/
theorem dotGeneral_rows_apply {φ₁ φ₂ : FTy} (wf : DotDims.WF ⟨2, ![a, k]⟩ ⟨2, ![b, k]⟩ ⟨2, ![a, b]⟩ [1] [1] [0] [0] [] [])
    (prec : Option ContractPrecision) (sched : HostSchedule) (lhs : FVec Ideal ⟨2, ![a, k]⟩ φ₁)
    (rhs : FVec Ideal ⟨2, ![b, k]⟩ φ₂) (i : Fin a) (j : Fin b) :
    FloatOps.dotGeneral (rowsDims a k b wf) prec sched lhs rhs (ix2 i j)
      = ∑ e : Fin k, lhs (ix2 i e) * rhs (ix2 j e) :=
  (Ideal.dotGeneral_apply (rowsDims a k b wf) prec sched lhs rhs (ix2 i j)).trans (rows_sum wf lhs rhs i j)

end Cert.LibRowsProduct

end
-- ==== Proof.Payload.lean ====
/-
  The arithmetic of one grid point, read entry by entry on the extended reals.

  At a point the body holds one tile `x` of 512 × 2048 token coordinates, the codewords `C` (32 × 512, twice: once per
  float format, which are one array here), the scales `s` and the codewords' squared lengths `q` (32 × 1 each).  It forms
  the score matrix `s_k · ((Σ_c x_ce² − 2 · Σ_c C_kc · x_ce) + q_k)`, each column's maximum, the exponentials of the
  shifted scores, each column's sum of them, and their quotient — the softmax weights `w_ke` —, and then adds to the
  running block, at `(k, c)`, `Σ_e w_ke · x_ce − (Σ_e w_ke) · C_kc`.  Every step here is a reading of one operation at an
  index: a sum or a maximum along an axis, a product of matrices as a sum, a keepdims cast or broadcast as a change of
  coordinates.  No law of arithmetic is used.
-/
import proofs.«117746_j40638980554922_2_alg».proof.Proof.Gen.KernelIdeal.Skeleton
import proofs.«117746_j40638980554922_2_alg».proof.Proof.Spec
import proofs.«117746_j40638980554922_2_alg».proof.Proof.LibRowMax
import proofs.«117746_j40638980554922_2_alg».proof.Proof.LibColumn
import proofs.«117746_j40638980554922_2_alg».proof.Proof.LibRowsProduct
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.VQ

/-- The literal 2 of the score, and the `−∞` the column maxima are folded from, as the programs spell them. -/
abbrev two : EReal := Ideal.ofBits .f32 0x40000000#32
abbrev ninf : EReal := Ideal.ofBits .f32 0xFF800000#32

theorem exp_apply {s : Shape} {φ : FTy} (a : FVec Ideal s φ) (i : s.Idx) : exp a i = Ideal.exp (a i) := rfl

/-- A vector sum along the first axis, at column `q`: the sum over the rows. -/
theorem sum_first {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (q : Fin b) :
    multiReduction .add [0] ⟨1, ![b]⟩ src 0x00000000#32 h hφ hacc (ix1 q) = ∑ k : Fin a, src (ix2 k q) :=
  (Ideal.multiReduction_add_single src _ h hφ hacc (ix1 q)).trans
    (Finset.sum_congr rfl fun k _ => congrArg src (Cert.LibRowMax.lift_first h q k))

variable (v3 : FVec Ideal S1x512x2048 .f32) (v6 : FVec Ideal S32x512 .bf16) (v8 v10 : FVec Ideal S32x1 .f32)

/-- The tile as a matrix: the leading unit axis dropped. -/
theorem pay4_apply (c : Fin 512) (e : Fin 2048) : k0_pay4 (F := Ideal) v3 (ix2 c e) = v3 (ix3 (0 : Fin 1) c e) :=
  shapeCast_1ab_ab_apply v3 _ c e

theorem pay5_apply (c : Fin 512) (e : Fin 2048) : k0_pay5 (F := Ideal) v3 (ix2 c e) = v3 (ix3 (0 : Fin 1) c e) :=
  pay4_apply v3 c e

/-! ## The stages of the weight matrix, named -/

/-- The tokens' squared lengths, kept as one row. -/
def sqRow : FVec Ideal S1x2048 .f32 :=
  shapeCast S1x2048 (multiReduction .add [0] S2048 (mulf (k0_pay4 (F := Ideal) v3) (k0_pay4 (F := Ideal) v3)) 0x00000000#32
    reduces_S512x2048_S2048 (.inl rfl) rfl) shapeCasts_S2048_S1x2048

/-- The score matrix. -/
def scores : FVec Ideal S32x2048 .f32 :=
  mulf (broadcastTo S32x2048 (shapeCast S32x1 v8 shapeCasts_S32x1_S32x1) broadcasts_S32x1_S32x2048)
    (addf (subf (broadcastTo S32x2048 (sqRow v3) broadcasts_S1x2048_S32x2048)
        (mulf (broadcast S32x2048 (Scalar.ofBits (F := Ideal) .f32 0x40000000#32))
          (matmul dot_S32x512_S512x2048_S32x2048_1_0_0_1_n_n none (shapeCast S32x512 v6 shapeCasts_S32x512_S32x512)
            (k0_pay5 (F := Ideal) v3) (constant (F := Ideal) S32x2048 .f32 0x00000000#32))))
      (broadcastTo S32x2048 (shapeCast S32x1 v10 shapeCasts_S32x1_S32x1) broadcasts_S32x1_S32x2048))

/-- Each column's largest score, kept as one row. -/
def topRow : FVec Ideal S1x2048 .f32 :=
  shapeCast S1x2048 (multiReduction .maximumf [0] S2048 (scores v3 v6 v8 v10) 0xFF800000#32
    reduces_S32x2048_S2048 (.inl rfl) rfl) shapeCasts_S2048_S1x2048

/-- The exponentials of the shifted scores. -/
def expo : FVec Ideal S32x2048 .f32 :=
  exp (subf (scores v3 v6 v8 v10) (broadcastTo S32x2048 (topRow v3 v6 v8 v10) broadcasts_S1x2048_S32x2048))

/-- Each column's sum of exponentials, kept as one row. -/
def denRow : FVec Ideal S1x2048 .f32 :=
  shapeCast S1x2048 (multiReduction .add [0] S2048 (expo v3 v6 v8 v10) 0x00000000#32
    reduces_S32x2048_S2048 (.inl rfl) rfl) shapeCasts_S2048_S1x2048

/-- The weight matrix is the quotient of the last two stages. -/
theorem pay6_eq : k0_pay6 (F := Ideal) v3 v6 v8 v10
    = divf (expo v3 v6 v8 v10) (broadcastTo S32x2048 (denRow v3 v6 v8 v10) broadcasts_S1x2048_S32x2048) := rfl

/-! ## Each stage at an index -/

theorem sqRow_apply (u : Fin 1) (e : Fin 2048) :
    sqRow v3 (ix2 u e) = ∑ c : Fin 512, v3 (ix3 (0 : Fin 1) c e) * v3 (ix3 (0 : Fin 1) c e) :=
  (shapeCast_a_1a_apply _ _ u e).trans
    ((sum_first (a := 512) (b := 2048) _ _ _ _ e).trans
      (Finset.sum_congr rfl fun c _ => by rw [mulf_apply, pay4_apply]))

theorem scores_apply (k : Fin 32) (e : Fin 2048) :
    scores v3 v6 v8 v10 (ix2 k e)
      = score two (fun c => v3 (ix3 (0 : Fin 1) c e)) (fun k c => v6 (ix2 k c)) (fun k => v8 (ix2 k (0 : Fin 1)))
          (fun k => v10 (ix2 k (0 : Fin 1))) k := by
  have hm : matmul dot_S32x512_S512x2048_S32x2048_1_0_0_1_n_n none (shapeCast S32x512 v6 shapeCasts_S32x512_S32x512)
      (k0_pay5 (F := Ideal) v3) (constant (F := Ideal) S32x2048 .f32 0x00000000#32) (ix2 k e)
      = ∑ c : Fin 512, (shapeCast S32x512 v6 shapeCasts_S32x512_S32x512) (ix2 k c) * k0_pay5 (F := Ideal) v3 (ix2 c e) :=
    Cert.LibRowMax.matmul_plain_apply (a := 32) (k := 512) (b := 2048) dot_S32x512_S512x2048_S32x2048_1_0_0_1_n_n_wf none _ _ k e
  unfold scores score
  rw [mulf_apply, addf_apply, subf_apply, mulf_apply, broadcast_apply, hm,
    Cert.LibColumn.broadcastTo_a1_ab_apply, Cert.LibColumn.broadcastTo_a1_ab_apply, broadcastTo_1b_ab_apply, sqRow_apply,
    shapeCast_self, shapeCast_self, shapeCast_self]
  simp only [pay5_apply]
  rfl

theorem topRow_apply (u : Fin 1) (e : Fin 2048) :
    topRow v3 v6 v8 v10 (ix2 u e)
      = top two ninf (fun c => v3 (ix3 (0 : Fin 1) c e)) (fun k c => v6 (ix2 k c)) (fun k => v8 (ix2 k (0 : Fin 1)))
          (fun k => v10 (ix2 k (0 : Fin 1))) :=
  (shapeCast_a_1a_apply _ _ u e).trans
    ((Cert.LibRowMax.multiReduction_max_first (a := 32) (b := 2048) (scores v3 v6 v8 v10) _ _ _ _ e).trans
      (congrArg (Finset.fold max ninf · Finset.univ) (funext fun k => scores_apply v3 v6 v8 v10 k e)))

theorem expo_apply (k : Fin 32) (e : Fin 2048) :
    expo v3 v6 v8 v10 (ix2 k e)
      = Ideal.exp (score two (fun c => v3 (ix3 (0 : Fin 1) c e)) (fun k c => v6 (ix2 k c)) (fun k => v8 (ix2 k (0 : Fin 1)))
          (fun k => v10 (ix2 k (0 : Fin 1))) k
        - top two ninf (fun c => v3 (ix3 (0 : Fin 1) c e)) (fun k c => v6 (ix2 k c)) (fun k => v8 (ix2 k (0 : Fin 1)))
          (fun k => v10 (ix2 k (0 : Fin 1)))) := by
  unfold expo
  rw [exp_apply, subf_apply, broadcastTo_1b_ab_apply, topRow_apply, scores_apply]

theorem denRow_apply (u : Fin 1) (e : Fin 2048) :
    denRow v3 v6 v8 v10 (ix2 u e)
      = ∑ k' : Fin 32, Ideal.exp (score two (fun c => v3 (ix3 (0 : Fin 1) c e)) (fun k c => v6 (ix2 k c))
          (fun k => v8 (ix2 k (0 : Fin 1))) (fun k => v10 (ix2 k (0 : Fin 1))) k'
        - top two ninf (fun c => v3 (ix3 (0 : Fin 1) c e)) (fun k c => v6 (ix2 k c)) (fun k => v8 (ix2 k (0 : Fin 1)))
          (fun k => v10 (ix2 k (0 : Fin 1)))) :=
  (shapeCast_a_1a_apply _ _ u e).trans
    ((sum_first (a := 32) (b := 2048) (expo v3 v6 v8 v10) _ _ _ e).trans
      (Finset.sum_congr rfl fun k' _ => expo_apply v3 v6 v8 v10 k' e))

/-- The weight the body gives codeword `k` for the tile's token `e` is the softmax weight of that token's scores. -/
theorem pay6_apply (k : Fin 32) (e : Fin 2048) :
    k0_pay6 (F := Ideal) v3 v6 v8 v10 (ix2 k e)
      = wgt two ninf (fun c => v3 (ix3 (0 : Fin 1) c e)) (fun k c => v6 (ix2 k c)) (fun k => v8 (ix2 k (0 : Fin 1)))
          (fun k => v10 (ix2 k (0 : Fin 1))) k := by
  rw [pay6_eq, divf_apply, broadcastTo_1b_ab_apply, expo_apply, denRow_apply]
  rfl

/-- The tile's total weight of codeword `k`, kept as a column. -/
theorem pay7_apply (k : Fin 32) (u : Fin 1) :
    k0_pay7 (F := Ideal) v3 v6 v8 v10 (ix2 k u) = ∑ e : Fin 2048, k0_pay6 (F := Ideal) v3 v6 v8 v10 (ix2 k e) :=
  (Cert.LibColumn.shapeCast_a_a1_apply _ _ k u).trans
    (Cert.LibColumn.sum_last_apply (a := 32) (b := 2048) (k0_pay6 (F := Ideal) v3 v6 v8 v10) _ _ _ k)

theorem pay8_apply (k : Fin 32) (e : Fin 2048) :
    k0_pay8 (F := Ideal) v3 v6 v8 v10 (ix2 k e) = k0_pay6 (F := Ideal) v3 v6 v8 v10 (ix2 k e) := rfl

/-- The running block after the point: what it held, plus the weighted sum of the tile's tokens less the tile's total
    weight times the codeword. -/
theorem pay1_apply (v5 : FVec Ideal S32x512 .f32) (v15 : FVec Ideal S512x2048 .bf16) (v35 : FVec Ideal S32x1 .f32)
    (v36 : FVec Ideal S32x2048 .bf16) (v41 : FVec Ideal S32x512 .f32) (k : Fin 32) (c : Fin 512) :
    k0_pay1 (F := Ideal) v5 v15 v35 v36 (constant (F := Ideal) S32x512 .f32 0x00000000#32) v41 (ix2 k c)
      = v41 (ix2 k c) + ((∑ e : Fin 2048, v36 (ix2 k e) * v15 (ix2 c e)) - v35 (ix2 k (0 : Fin 1)) * v5 (ix2 k c)) := by
  have hm : matmul dot_S32x2048_S512x2048_S32x512_1_1_0_0_n_n none v36 v15 (constant (F := Ideal) S32x512 .f32 0x00000000#32) (ix2 k c)
      = ∑ e : Fin 2048, v36 (ix2 k e) * v15 (ix2 c e) :=
    Cert.LibRowsProduct.matmul_rows_apply (a := 32) (k := 2048) (b := 512) dot_S32x2048_S512x2048_S32x512_1_1_0_0_n_n_wf none v36 v15 k c
  unfold k0_pay1
  rw [shapeCast_self, addf_apply, subf_apply, mulf_apply, Cert.LibColumn.broadcastTo_a1_ab_apply, hm]

/-- THE POINT'S STEP: the running block `acc` after a point whose tile is `x`. -/
def step (x : FVec Ideal S1x512x2048 .f32) (C : FVec Ideal S32x512 .f32) (Cb : FVec Ideal S32x512 .bf16)
    (s q : FVec Ideal S32x1 .f32) (acc : FVec Ideal S32x512 .f32) : FVec Ideal S32x512 .f32 :=
  k0_pay1 (F := Ideal) C (k0_pay5 (F := Ideal) x) (k0_pay7 (F := Ideal) x Cb s q) (k0_pay8 (F := Ideal) x Cb s q)
    (constant (F := Ideal) S32x512 .f32 0x00000000#32) acc

theorem step_apply (x : FVec Ideal S1x512x2048 .f32) (C : FVec Ideal S32x512 .f32) (Cb : FVec Ideal S32x512 .bf16)
    (s q : FVec Ideal S32x1 .f32) (acc : FVec Ideal S32x512 .f32) (k : Fin 32) (c : Fin 512) :
    step x C Cb s q acc (ix2 k c)
      = acc (ix2 k c)
        + ((∑ e : Fin 2048, wgt two ninf (fun c' => x (ix3 (0 : Fin 1) c' e)) (fun k c => Cb (ix2 k c))
              (fun k => s (ix2 k (0 : Fin 1))) (fun k => q (ix2 k (0 : Fin 1))) k * x (ix3 (0 : Fin 1) c e))
          - (∑ e : Fin 2048, wgt two ninf (fun c' => x (ix3 (0 : Fin 1) c' e)) (fun k c => Cb (ix2 k c))
              (fun k => s (ix2 k (0 : Fin 1))) (fun k => q (ix2 k (0 : Fin 1))) k) * C (ix2 k c)) := by
  unfold step
  rw [pay1_apply, pay7_apply]
  simp only [pay8_apply, pay6_apply, pay5_apply]

end Cert.KernelIdeal.Body

end
-- ==== Proof.Pieces.lean ====
/-
  What one grid point leaves behind, as values.

  The body keeps a running 32 × 512 block in a scratch buffer that lives across grid points.  At the first tile of a
  batch entry it stores zeros there, reads them back and stores `zeros + (this tile's contribution)`; at the second
  tile it reads what the first tile left and stores that plus its own contribution, and then copies the scratch block
  into the output block.  Each statement below reads one buffer after the body: the last covering store's payload, with
  every load replaced by what was stored where it reads.
-/
import proofs.«117746_j40638980554922_2_alg».proof.Proof.Gen.KernelIdeal.Frame
import proofs.«117746_j40638980554922_2_alg».proof.Proof.Payload
import Idealize.ShloMosaic.Lib.Pipeline.Value
import Idealize.ShloMosaic.Lib.Tactic

noncomputable section

namespace Cert.KernelIdeal.Run

open Cert.KernelIdeal Cert.KernelIdeal.Gen Idealize.ShloMosaic Idealize.ShloMosaic.TcCoe Idealize.ShloMosaic.Tactic
open Idealize.SL.Sem Cert.KernelIdeal.Body

theorem hz2 : (![0, 0] : Fin 2 → Nat) = fun _ => 0 := funext fun a => by fin_cases a <;> rfl
theorem hz3 : (![0, 0, 0] : Fin 3 → Nat) = fun _ => 0 := funext fun a => by fin_cases a <;> rfl

/-- FIRST TILE: the scratch block ends at the step from the zero block. -/
theorem scratch_A (c : Dev nD) (i : grid0.Coords) (a2 : Memref sig .tc .vmem S1x512x2048 .f32) (h2 : a2.IsWhole) (a3 : Memref sig .tc .vmem S32x512 .f32) (h3 : a3.IsWhole) (a4 : Memref sig .tc .vmem S32x512 .bf16) (h4 : a4.IsWhole) (a5 : Memref sig .tc .vmem S32x1 .f32) (h5 : a5.IsWhole) (a6 : Memref sig .tc .vmem S32x1 .f32) (h6 : a6.IsWhole) (a7 : Memref sig .tc .vmem S1x32x512 .f32) (h7 : a7.IsWhole) (a8 : Memref sig .tc .vmem S32x512 .f32) (h8 : a8.IsWhole) (hc0 : cond0_0 i) (hc1 : ¬cond0_1 i) (x0 : Vec Ideal S1x512x2048 .f32) (x1 : Vec Ideal S32x512 .f32) (x2 : Vec Ideal S32x512 .bf16) (x3 : Vec Ideal S32x1 .f32) (x4 : Vec Ideal S32x1 .f32) :
    sout0_A_0 (F := Ideal) c i a2 h2 a3 h3 a4 h4 a5 h5 a6 h6 a7 h7 a8 h8 hc0 hc1 x0 x1 x2 x3 x4 = step x0 x1 x2 x3 x4 (k0_pay3 (F := Ideal)) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S32x512) hz2, View.readCov_unit_zero (S := S32x512) _ hz2]
  unfold step
  simp only [View.readAt_eq_ld, h2.read_unread, h3.read_unread, h4.read_unread, h5.read_unread, h6.read_unread,
    View.ld_unit_zero (S := S1x512x2048) hz3, View.ld_unit_zero (S := S32x512) hz2, View.ld_unit_zero (S := S32x1) hz2]

/-- SECOND TILE: the scratch block ends at the step from what the first tile left, `xs0`. -/
theorem scratch_B (c : Dev nD) (i : grid0.Coords) (a2 : Memref sig .tc .vmem S1x512x2048 .f32) (h2 : a2.IsWhole) (a3 : Memref sig .tc .vmem S32x512 .f32) (h3 : a3.IsWhole) (a4 : Memref sig .tc .vmem S32x512 .bf16) (h4 : a4.IsWhole) (a5 : Memref sig .tc .vmem S32x1 .f32) (h5 : a5.IsWhole) (a6 : Memref sig .tc .vmem S32x1 .f32) (h6 : a6.IsWhole) (a7 : Memref sig .tc .vmem S1x32x512 .f32) (h7 : a7.IsWhole) (a8 : Memref sig .tc .vmem S32x512 .f32) (h8 : a8.IsWhole) (hc0 : ¬cond0_0 i) (hc1 : cond0_1 i) (x0 : Vec Ideal S1x512x2048 .f32) (x1 : Vec Ideal S32x512 .f32) (x2 : Vec Ideal S32x512 .bf16) (x3 : Vec Ideal S32x1 .f32) (x4 : Vec Ideal S32x1 .f32) (xs0 : Vec Ideal S32x512 .f32) :
    sout0_B_0 (F := Ideal) c i a2 h2 a3 h3 a4 h4 a5 h5 a6 h6 a7 h7 a8 h8 hc0 hc1 x0 x1 x2 x3 x4 xs0 = step x0 x1 x2 x3 x4 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero hz2]
  unfold step
  simp only [View.readAt_eq_ld, h2.read_unread, h3.read_unread, h4.read_unread, h5.read_unread, h6.read_unread, h8.read_unread,
    View.ld_unit_zero (S := S1x512x2048) hz3, View.ld_unit_zero (S := S32x512) hz2, View.ld_unit_zero (S := S32x1) hz2]

/-- SECOND TILE: the output block ends at that same block, with a unit axis in front. -/
theorem out_B (c : Dev nD) (i : grid0.Coords) (a2 : Memref sig .tc .vmem S1x512x2048 .f32) (h2 : a2.IsWhole) (a3 : Memref sig .tc .vmem S32x512 .f32) (h3 : a3.IsWhole) (a4 : Memref sig .tc .vmem S32x512 .bf16) (h4 : a4.IsWhole) (a5 : Memref sig .tc .vmem S32x1 .f32) (h5 : a5.IsWhole) (a6 : Memref sig .tc .vmem S32x1 .f32) (h6 : a6.IsWhole) (a7 : Memref sig .tc .vmem S1x32x512 .f32) (h7 : a7.IsWhole) (a8 : Memref sig .tc .vmem S32x512 .f32) (h8 : a8.IsWhole) (hc0 : ¬cond0_0 i) (hc1 : cond0_1 i) (x0 : Vec Ideal S1x512x2048 .f32) (x1 : Vec Ideal S32x512 .f32) (x2 : Vec Ideal S32x512 .bf16) (x3 : Vec Ideal S32x1 .f32) (x4 : Vec Ideal S32x1 .f32) (xs0 : Vec Ideal S32x512 .f32) :
    out0_B_5 (F := Ideal) c i a2 h2 a3 h3 a4 h4 a5 h5 a6 h6 a7 h7 a8 h8 hc0 hc1 x0 x1 x2 x3 x4 xs0 = k0_pay2 (F := Ideal) (step x0 x1 x2 x3 x4 xs0) := by
  unfold out0_B_5
  rw [View.read_writes_eq_canon _ _ _ (cover0_B_5 c i a2 h2 a3 h3 a4 h4 a5 h5 a6 h6 a7 h7 a8 h8 hc0 hc1 x0 x1 x2 x3 x4 xs0)]
  unfold kernelRun0_B
  dsimp only
  sl_unfold_words
  rw [View.canon_unit_zero hz3, View.readCov_unit_zero (S := S32x512) _ hz2]
  unfold step
  simp only [View.readAt_eq_ld, h2.read_unread, h3.read_unread, h4.read_unread, h5.read_unread, h6.read_unread, h8.read_unread,
    View.ld_unit_zero (S := S1x512x2048) hz3, View.ld_unit_zero (S := S32x512) hz2, View.ld_unit_zero (S := S32x1) hz2]

end Cert.KernelIdeal.Run

end
-- ==== Proof.KernelValue.lean ====
/-
  The kernel's result array, entry by entry.

  The grid has 32 points: point `t` handles tile `t mod 2` of batch entry `t div 2`.  Its token block is rows
  `(b, ·, 2048 · j + ·)` of the reshaped input; the codewords, the scales (as a column) and the codewords' squared
  lengths (as a column) are the same whole arrays at every point.  The output block `(b, ·, ·)` is written back once,
  after the second tile of `b`, and then holds `(0 + tile 0's contribution) + tile 1's contribution`.  The sixteen
  blocks written back cover the result array.
-/
import proofs.«117746_j40638980554922_2_alg».proof.Proof.Gen.KernelIdeal.Value
import proofs.«117746_j40638980554922_2_alg».proof.Proof.Pieces
import proofs.«117746_j40638980554922_2_alg».proof.Proof.LibColumn
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

noncomputable section

namespace Cert.KernelIdeal.Run

open Cert.KernelIdeal Cert.KernelIdeal.Gen Idealize.ShloMosaic Idealize.ShloMosaic.TcCoe Idealize.ShloMosaic.Tactic
open Idealize.SL.Sem Cert.KernelIdeal.Body Idealize.ShloMosaic.ValueIdx Cert.VQ Idealize.ShloMosaic.StableHlo
open Idealize.ShloMosaic.Pipeline (Dat)

variable (m : (ℓ : Loc nD τ sig) → Buf (Elt Ideal) ℓ) (ρ : Dev nD → PrngReg)

/-- The three inputs as launched. -/
abbrev In0 (c : Dev nD) : FVec Ideal S16x512x64x64 .f32 := m ((c : Thread nD τ).loc main_arg0)
abbrev In1 (c : Dev nD) : FVec Ideal S32x512 .f32 := m ((c : Thread nD τ).loc main_arg1)
abbrev In2 (c : Dev nD) : FVec Ideal S32 .f32 := m ((c : Thread nD τ).loc main_arg2)

/-- The input with its two spatial axes merged: the tokens. -/
abbrev Tok (c : Dev nD) : FVec Ideal S16x512x4096 .f32 :=
  shapeCast S16x512x4096 (In0 m c) shapeCasts_S16x512x64x64_S16x512x4096
/-- A codeword's squared length. -/
abbrev Len (c : Dev nD) (k : Fin 32) : EReal := ∑ c' : Fin 512, In1 m c (ix2 k c') * In1 m c (ix2 k c')

/-! ## What the host operations before the launch leave -/

theorem V_tok (c : Dev nD) : (V m c main_v0 : S16x512x4096.Idx → EReal) = Tok m c := by
  dsimp only [V, hostOps0]; after_results; rfl

theorem V_scale (c : Dev nD) : (V m c main_v1 : S32x1.Idx → EReal) = shapeCast S32x1 (In2 m c) shapeCasts_S32_S32x1 := by
  dsimp only [V, hostOps0]; after_results; rfl

theorem V_cwb (c : Dev nD) : (V m c main_v2 : S32x512.Idx → EReal) = In1 m c := by
  dsimp only [V, hostOps0]; after_results; rfl

theorem V_len (c : Dev nD) : (V m c main_v5 : S32x1.Idx → EReal)
    = broadcastInDim S32x1 ![0] bcast_S32_S32x1_0
        (Host.reduceAdd (F := Ideal) (mulf (In1 m c) (In1 m c)) (constant (F := Ideal) S_ .f32 0x00000000#32) reducesTo_S32x512_S32_d1 h_S_) := by
  dsimp only [V, hostOps0]; after_results

/-- The host's sum of squares of codeword `k`. -/
theorem len_apply (c : Dev nD) (k : Fin 32) :
    Host.reduceAdd (F := Ideal) (mulf (In1 m c) (In1 m c)) (constant (F := Ideal) S_ .f32 0x00000000#32) reducesTo_S32x512_S32_d1 h_S_ (ix1 k)
      = Len m c k := by
  simp only [Host.reduceAdd, Ideal.hostReduceAdd_def]
  rw [Ideal.hostReduceAdd_single reducesTo_S32x512_S32_d1 (by decide)]
  show Ideal.ofBits .f32 0x00000000#32 + _ = _
  rw [Ideal.ofBits_zero_f32, zero_add]
  refine Finset.sum_congr rfl fun c' _ => ?_
  have e : (Shape.Reduces.lift (s := S32x512) (t := S32) (by decide) (ix1 k) c') = ix2 k c' := by
    funext a; apply Fin.ext
    match a with
    | ⟨0, _⟩ => rfl
    | ⟨1, _⟩ => rfl
  rw [e]
  rfl

/-! ## The windows' blocks -/

/-- The printed index maps, decided over the grid. -/
theorem idx_facts : ∀ t : Fin cfg0.N,
    win0_0.index t (0 : Fin 3) = t.val / 2 ∧ win0_0.index t (1 : Fin 3) = 0 ∧ win0_0.index t (2 : Fin 3) = t.val % 2
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 2 ∧ win0_5.index t (1 : Fin 3) = 0 ∧ win0_5.index t (2 : Fin 3) = 0 :=
  (by decide +kernel : ∀ t : Fin grid0.N, _)

/-- The token block at point `t = 2 b + j`: tile `j` of batch entry `b`. -/
theorem blk0_apply (c : Dev nD) (t : Fin cfg0.N) (b : Fin 16) (j : Fin 2) (ht : t.val = 2 * b.val + j.val)
    (c' : Fin 512) (e : Fin 2048) :
    (iblk m c 0 t : FVec Ideal S1x512x2048 .f32) (ix3 (0 : Fin 1) c' e) = Tok m c (ix3 b c' (col j e)) := by
  obtain ⟨e0, e1, e2, -⟩ := idx_facts t
  unfold iblk
  rw [View.read_apply]
  show V m c main_v0 _ = _
  rw [V_tok]
  congr 1
  funext a; apply Fin.ext
  have hj := j.isLt
  match a with
  | ⟨0, _⟩ => show win0_0.index t (0 : Fin 3) * 1 + 1 * 0 = b.val; omega
  | ⟨1, _⟩ => show win0_0.index t (1 : Fin 3) * 512 + 1 * c'.val = c'.val; omega
  | ⟨2, _⟩ => show win0_0.index t (2 : Fin 3) * 2048 + 1 * e.val = e.val + 2048 * j.val; omega

theorem blk1_apply (c : Dev nD) (t : Fin cfg0.N) (k : Fin 32) (c' : Fin 512) :
    (iblk m c 1 t : FVec Ideal S32x512 .f32) (ix2 k c') = In1 m c (ix2 k c') := by
  obtain ⟨-, -, -, e0, e1, -⟩ := idx_facts t
  unfold iblk
  rw [View.read_apply]
  show V m c main_arg1 _ = _
  rw [V_main_arg1]
  congr 1
  funext a; apply Fin.ext
  match a with
  | ⟨0, _⟩ => show win0_1.index t (0 : Fin 2) * 32 + 1 * k.val = k.val; omega
  | ⟨1, _⟩ => show win0_1.index t (1 : Fin 2) * 512 + 1 * c'.val = c'.val; omega

theorem blk2_apply (c : Dev nD) (t : Fin cfg0.N) (k : Fin 32) (c' : Fin 512) :
    (iblk m c 2 t : FVec Ideal S32x512 .bf16) (ix2 k c') = In1 m c (ix2 k c') := by
  obtain ⟨-, -, -, -, -, e0, e1, -⟩ := idx_facts t
  unfold iblk
  rw [View.read_apply]
  show V m c main_v2 _ = _
  rw [V_cwb]
  congr 1
  funext a; apply Fin.ext
  match a with
  | ⟨0, _⟩ => show win0_2.index t (0 : Fin 2) * 32 + 1 * k.val = k.val; omega
  | ⟨1, _⟩ => show win0_2.index t (1 : Fin 2) * 512 + 1 * c'.val = c'.val; omega

theorem blk3_apply (c : Dev nD) (t : Fin cfg0.N) (k : Fin 32) (u : Fin 1) :
    (iblk m c 3 t : FVec Ideal S32x1 .f32) (ix2 k u) = In2 m c (ix1 k) := by
  obtain ⟨-, -, -, -, -, -, -, e0, e1, -⟩ := idx_facts t
  unfold iblk
  rw [View.read_apply]
  show V m c main_v1 _ = _
  rw [V_scale]
  refine (congrArg (shapeCast S32x1 (In2 m c) shapeCasts_S32_S32x1) (?_ : _ = ix2 k (0 : Fin 1))).trans
    (Cert.LibColumn.shapeCast_a_a1_apply _ _ k (0 : Fin 1))
  funext a; apply Fin.ext
  have hu := u.isLt
  match a with
  | ⟨0, _⟩ => show win0_3.index t (0 : Fin 2) * 32 + 1 * k.val = k.val; omega
  | ⟨1, _⟩ => show win0_3.index t (1 : Fin 2) * 1 + 1 * u.val = 0; omega

theorem blk4_apply (c : Dev nD) (t : Fin cfg0.N) (k : Fin 32) (u : Fin 1) :
    (iblk m c 4 t : FVec Ideal S32x1 .f32) (ix2 k u) = Len m c k := by
  obtain ⟨-, -, -, -, -, -, -, -, -, e0, e1, -⟩ := idx_facts t
  unfold iblk
  rw [View.read_apply]
  show V m c main_v5 _ = _
  rw [V_len]
  refine (broadcastInDim_apply _ bcast_S32_S32x1_0 _ _ (ix1 k) (fun a => ?_)).trans (len_apply m c k)
  match a with
  | ⟨0, _⟩ =>
    show k.val = if (32 : Nat) = 1 then 0 else win0_4.index t (0 : Fin 2) * 32 + 1 * k.val
    rw [if_neg (by decide)]; omega

/-! ## One point's step over its blocks -/

/-- The step at point `t = 2 b + j` adds tile `j`'s contribution for batch entry `b`. -/
theorem step_blocks (c : Dev nD) (t : Fin cfg0.N) (b : Fin 16) (j : Fin 2) (ht : t.val = 2 * b.val + j.val)
    (acc : FVec Ideal S32x512 .f32) (k : Fin 32) (cc : Fin 512) :
    step (iblk m c 0 t) (iblk m c 1 t) (iblk m c 2 t) (iblk m c 3 t) (iblk m c 4 t) acc (ix2 k cc)
      = acc (ix2 k cc) + tile two ninf (fun c' n => Tok m c (ix3 b c' n)) (fun k c' => In1 m c (ix2 k c'))
          (fun k => In2 m c (ix1 k)) (Len m c) j k cc := by
  refine (step_apply (iblk m c 0 t) (iblk m c 1 t) (iblk m c 2 t) (iblk m c 3 t) (iblk m c 4 t) acc k cc).trans ?_
  unfold tile
  simp only [blk0_apply m c t b j ht, blk1_apply, blk2_apply, blk3_apply, blk4_apply]

/-! ## The result array -/

/-- The result at `(b, k, cc)`: the two tiles' contributions for batch entry `b`. -/
def resultAt (c : Dev nD) (b : Fin 16) (k : Fin 32) (cc : Fin 512) : EReal :=
  tiled two ninf (fun c' n => Tok m c (ix3 b c' n)) (fun k c' => In1 m c (ix2 k c')) (fun k => In2 m c (ix1 k)) (Len m c) k cc

/-- The result array. -/
def result (c : Dev nD) : Buf (Elt Ideal) ((c : Thread nD τ).loc main_v6) := fun i =>
  resultAt m c ⟨(i 0).val, (i 0).isLt⟩ ⟨(i 1).val, (i 1).isLt⟩ ⟨(i 2).val, (i 2).isLt⟩

theorem result_apply (c : Dev nD) (b : Fin 16) (k : Fin 32) (cc : Fin 512) :
    result m c (ix3 b k cc) = resultAt m c b k cc := rfl

/-- The zero block the first tile starts from. -/
theorem zero_apply (k : Fin 32) (cc : Fin 512) : k0_pay3 (F := Ideal) (ix2 k cc) = 0 := by
  unfold k0_pay3
  rw [shapeCast_self]
  exact Ideal.ofBits_zero_f32

/-- The output block is the running block with a unit axis in front. -/
theorem out_apply (v : FVec Ideal S32x512 .f32) (u : Fin 1) (k : Fin 32) (cc : Fin 512) :
    k0_pay2 (F := Ideal) v (ix3 u k cc) = v (ix2 k cc) :=
  shapeCast_ab_1ab_apply v _ u k cc

/-- WHAT A WRITE-BACK WRITES: after the second tile of batch entry `b`, block `b` of the result. -/
theorem flushed_eq (c : Dev nD) (t : Fin cfg0.N) (hf : (cfg0.win 5).flush t = true) :
    (dats m 0 c).flushed 5 t = ((cfg0.win 5).blk t).view.read (Elt Ideal) (result m c) := by
  have hN : cfg0.N = 32 := N_0
  have h1 : t.val % 2 = 1 := (flush0_5 t).mp hf
  have h0 : ¬t.val % 2 = 0 := by omega
  have hlt := t.isLt
  obtain ⟨t', ht'⟩ : ∃ t' : Fin cfg0.N, t'.val = t.val - 1 := ⟨⟨t.val - 1, by omega⟩, rfl⟩
  have h0' : t'.val % 2 = 0 := by omega
  have h1' : ¬t'.val % 2 = 1 := by omega
  obtain ⟨b, hb⟩ : ∃ b : Fin 16, b.val = t.val / 2 := ⟨⟨t.val / 2, by omega⟩, rfl⟩
  have ht1 : t.val = 2 * b.val + (1 : Fin 2).val := by show t.val = 2 * b.val + 1; omega
  have ht0 : t'.val = 2 * b.val + (0 : Fin 2).val := by show t'.val = 2 * b.val + 0; omega
  have hprev : (outsAt0 m c (t.val - 1) (Nat.lt_of_le_of_lt (Nat.sub_le _ _) t.isLt)).2
      = step (iblk m c 0 t') (iblk m c 1 t') (iblk m c 2 t') (iblk m c 3 t') (iblk m c 4 t') (k0_pay3 (F := Ideal)) := by
    have e : ∀ (n : ℕ) (hn : n < cfg0.N), n = t'.val → (outsAt0 m c n hn).2 = (outsAt0 m c t'.val t'.isLt).2 := by
      intro n hn h; subst h; rfl
    rw [e _ _ ht'.symm, outsAt0_A m c t' h0' h1']
    dsimp only
    exact scratch_A c (grid0.coords t') (ms0_0 t') (hs0_0 t') (ms0_1 t') (hs0_1 t') (ms0_2 t') (hs0_2 t') (ms0_3 t') (hs0_3 t') (ms0_4 t') (hs0_4 t') (ms0_5 t') (hs0_5 t') scM0_0 (Memref.isWhole_whole _) ((hcond0_0 t').mpr h0') (fun h => h1' ((hcond0_1 t').mp h)) (iblk m c 0 t') (iblk m c 1 t') (iblk m c 2 t') (iblk m c 3 t') (iblk m c 4 t')
  refine (Cert.KernelIdeal.Value.flushed5_B m c t h0 h1).trans ?_
  rw [hprev, out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t)]
  obtain ⟨-, -, -, -, -, -, -, -, -, -, -, e0, e1, e2⟩ := idx_facts t
  funext y
  obtain ⟨u, k, cc, rfl⟩ : ∃ (u : Fin 1) (k : Fin 32) (cc : Fin 512), y = ix3 u k cc :=
    ⟨y 0, y 1, y 2, eq_ix3 (n0 := 1) (n1 := 32) (n2 := 512) y⟩
  have hu := u.isLt
  have hemb : ((cfg0.win 5).blk t).view.emb (ix3 u k cc) = ix3 b k cc := by
    funext a; apply Fin.ext
    match a with
    | ⟨0, _⟩ => show win0_5.index t (0 : Fin 3) * 1 + 1 * u.val = b.val; omega
    | ⟨1, _⟩ => show win0_5.index t (1 : Fin 3) * 32 + 1 * k.val = k.val; omega
    | ⟨2, _⟩ => show win0_5.index t (2 : Fin 3) * 512 + 1 * cc.val = cc.val; omega
  rw [View.read_apply]
  change k0_pay2 (F := Ideal) _ (ix3 u k cc) = result m c (((cfg0.win 5).blk t).view.emb (ix3 u k cc))
  rw [hemb, result_apply]
  refine (out_apply _ u k cc).trans ?_
  rw [step_blocks m c t b 1 ht1, step_blocks m c t' b 0 ht0, zero_apply, zero_add]
  rfl

/-- The sixteen blocks written back cover the result array: entry `(b, ·, ·)` is in the block written after point `2 b + 1`. -/
theorem cover (c : Dev nD) (i : S16x32x512.Idx) :
    ∃ t : Fin cfg0.N, (cfg0.win 5).flush t = true ∧ i ∈ ((cfg0.win 5).blk t).view.set := by
  have hN : cfg0.N = 32 := N_0
  have h0 : (i 0).val < 16 := (i 0).isLt
  have h1 : (i 1).val < 32 := (i 1).isLt
  have h2 : (i 2).val < 512 := (i 2).isLt
  obtain ⟨t, ht⟩ : ∃ t : Fin cfg0.N, t.val = 2 * (i 0).val + 1 := ⟨⟨2 * (i 0).val + 1, by omega⟩, rfl⟩
  obtain ⟨-, -, -, -, -, -, -, -, -, -, -, e0, e1, e2⟩ := idx_facts t
  refine ⟨t, (flush0_5 t).mpr (by omega), ?_⟩
  show i ∈ ((View.whole main_v6).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 32 ≤ (i 1).val ∧ (i 1).val < win0_5.index t (1 : Fin 3) * 32 + 32; omega
  | ⟨2, _⟩ => show win0_5.index t (2 : Fin 3) * 512 ≤ (i 2).val ∧ (i 2).val < win0_5.index t (2 : Fin 3) * 512 + 512; omega

/-- So the result array ends holding `result`. -/
theorem final (c : Dev nD) : (dats m 0 c).arrAt 5 cfg0.N = result m c :=
  (dats m 0 c).arrAt_eq_of_cover 5 (result m c) (flushed_eq m c) (cover c)

/-- The run, read: the result array at `result`, the inputs unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Run

end
-- ==== Proof.lean ====
/-
  The certificate of the codebook encoder: the tiled kernel against the one-pass reference.

  Both programs compute, for batch entry `b`, codeword `k` and coordinate `c`,
  `Σ_n w_n · x_{c,n} − (Σ_n w_n) · C_{k,c}` over the 4096 tokens of the entry, where `w_n` is the softmax weight of codeword
  `k` among the 32 scaled squared distances of token `n` to the codewords.  The kernel forms this in two halves of 2048
  tokens and adds the halves; the reference forms it in one pass.  The two agree for finite inputs because every
  intermediate quantity is then a real number, where sums split and products distribute (Spec.lean); the kernel's array
  is read off its frame run (KernelValue.lean), the reference's off its run (RefSide.lean), and the precondition gives
  the finiteness (Finite.lean).  The ideal pass rewrote nothing, so the kernel's idealization is the kernel's own text.
-/
import proofs.«117746_j40638980554922_2_alg».proof.Defs
import proofs.«117746_j40638980554922_2_alg».proof.Proof.Gen.Kernel
import proofs.«117746_j40638980554922_2_alg».proof.Proof.Gen.Kernel.Skeleton
import proofs.«117746_j40638980554922_2_alg».proof.Proof.Gen.Kernel.Launch
import proofs.«117746_j40638980554922_2_alg».proof.Proof.Gen.Kernel.Points
import proofs.«117746_j40638980554922_2_alg».proof.Proof.Gen.Kernel.Frame
import proofs.«117746_j40638980554922_2_alg».proof.Proof.Gen.KernelIdeal
import proofs.«117746_j40638980554922_2_alg».proof.Proof.Gen.KernelIdeal.Skeleton
import proofs.«117746_j40638980554922_2_alg».proof.Proof.Gen.KernelIdeal.Launch
import proofs.«117746_j40638980554922_2_alg».proof.Proof.Gen.KernelIdeal.Points
import proofs.«117746_j40638980554922_2_alg».proof.Proof.Gen.KernelIdeal.Frame
import proofs.«117746_j40638980554922_2_alg».proof.Proof.Gen.ReferenceIdeal
import proofs.«117746_j40638980554922_2_alg».proof.Proof.Gen.Pre_finite_inputs
import proofs.«117746_j40638980554922_2_alg».proof.Proof.Gen.KernelIdeal.Value
import proofs.«117746_j40638980554922_2_alg».proof.Proof.Gen.ReferenceIdeal.Run
import proofs.«117746_j40638980554922_2_alg».proof.Proof.Gen.ReferenceIdeal.Read
import proofs.«117746_j40638980554922_2_alg».proof.Proof.Spec
import proofs.«117746_j40638980554922_2_alg».proof.Proof.Finite
import proofs.«117746_j40638980554922_2_alg».proof.Proof.RefSide
import proofs.«117746_j40638980554922_2_alg».proof.Proof.KernelValue
import Idealize.ShloMosaic.Adequacy
import Idealize.ShloMosaic.Init

noncomputable section

namespace Cert.Proof

open Idealize.ShloMosaic Idealize.SL.Sem Idealize.ShloMosaic.ValueIdx Cert.Lib.FeatureFold Cert.VQ

/-- The score's literal is the real number 2. -/
theorem two_real : IsReal (Ideal.ofBits .f32 0x40000000#32) :=
  ⟨2, by simp [Ideal.ofBits, Ideal.ieee]; rw [← EReal.coe_mul]; congr 1; norm_num⟩

/-- The word the maxima are folded from is `−∞`. -/
theorem ninf_bot : Ideal.ofBits .f32 0xFF800000#32 = ⊥ := by simp [Ideal.ofBits, Ideal.ieee]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- For inputs that are real entry by entry, the reference's array is the kernel's array. -/
theorem results_agree (a0 : FVec Ideal Cert.KernelIdeal.S16x512x64x64 .f32) (a1 : FVec Ideal Cert.KernelIdeal.S32x512 .f32)
    (a2 : FVec Ideal Cert.KernelIdeal.S32 .f32)
    (h0 : ∀ i, IsReal (a0 i)) (h1 : ∀ i, IsReal (a1 i)) (h2 : ∀ i, IsReal (a2 i))
    (b : Fin 16) (k : Fin 32) (c : Fin 512) :
    Cert.ReferenceIdeal.Read.val_main_v36 (F := Ideal) a0 a1 a2 (ix3 b k c)
      = tiled Cert.KernelIdeal.Body.two Cert.KernelIdeal.Body.ninf
          (fun c' n => shapeCast Cert.KernelIdeal.S16x512x4096 a0 Cert.KernelIdeal.Gen.shapeCasts_S16x512x64x64_S16x512x4096 (ix3 b c' n))
          (fun k c' => a1 (ix2 k c')) (fun k => a2 (ix1 k)) (fun k => ∑ c' : Fin 512, a1 (ix2 k c') * a1 (ix2 k c')) k c := by
  rw [Cert.ReferenceIdeal.RefValue.result_apply]
  have hX : ∀ c' n, IsReal (shapeCast Cert.KernelIdeal.S16x512x4096 a0 Cert.KernelIdeal.Gen.shapeCasts_S16x512x64x64_S16x512x4096 (ix3 b c' n)) :=
    fun c' n => h0 _
  have hq : ∀ k, IsReal (∑ c' : Fin 512, a1 (ix2 k c') * a1 (ix2 k c')) :=
    fun k => IsReal.sum _ _ fun c' _ => (h1 _).mul (h1 _)
  show whole Cert.KernelIdeal.Body.two Cert.KernelIdeal.Body.ninf _ _ _ _ k c = _
  unfold Cert.KernelIdeal.Body.ninf
  rw [ninf_bot]
  exact (tiled_eq_whole two_real hX (fun k c' => h1 _) (fun k => h2 _) hq k c).symm

theorem algebraic : Cert.algebraic_KernelIdeal_ReferenceIdeal := by
  intro m ρ m' ρ' hpre hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Finite.inputs_real _ _ _ (hpre c)
  rw [Cert.ReferenceIdeal.Read.val_main_v36_eq, (hagree c).1, (hagree c).2.1, (hagree c).2.2]
  funext i
  obtain ⟨b, k, cc, rfl⟩ : ∃ (b : Fin 16) (k : Fin 32) (cc : Fin 512), i = ix3 b k cc := ⟨i 0, i 1, i 2, eq_ix3 i⟩
  exact results_agree _ _ _ h0 h1 h2 b k cc

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
